-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000 : Shape := ⟨2, ![64, 100000]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S64 .f32) (main_arg7 : FVec F S64x16 .f32) (main_arg8 : FVec F S64x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg9 main_v33

def fn {F : FTy → Type} [FloatOps F] (main_arg0 : FVec F S64x100000 .f32) (main_arg1 : IVec S1600000 32) (main_arg2 : IVec S1600000 32) (main_arg3 : FVec F S1600000 .f32) (main_arg4 : FVec F S64x64 .f32) (main_arg5 : FVec F S64x64 .f32) (main_arg6 : FVec F S64 .f32) (main_arg7 : FVec F S64x16 .f32) (main_arg8 : FVec F S64x16 .f32) (main_arg9 : FVec F S16 .f32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_v13 main_v16
-- ==== Kernel.lean ====
abbrev S64x100000 : Shape := ⟨2, ![64, 100000]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 47
  | .vmem => 18
  | .smem => 0
  | _ => 0

abbrev bufTy : (tb : Table) → Fin (tcTables nBuf tb) → BufTy
  | .hbm, ⟨0, _⟩ => ⟨S64x100000, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S64x16, .f32⟩
  | .hbm, ⟨9, _⟩ => ⟨S16, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S1600000x1, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x16, .f32⟩
  | .hbm, ⟨46, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x16, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x100000_S100000x64_1_0 : S64x100000.Transposes [1, 0] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x100000 : Shape := ⟨2, ![64, 100000]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x16 : Shape := ⟨2, ![100000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S64x16, .f32⟩
  | .hbm, ⟨9, _⟩ => ⟨S16, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S1600000x1, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x16, .f32⟩
  | .hbm, ⟨53, _⟩ => ⟨S100000x16, .f32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000x16, .f32⟩
  | .hbm, ⟨60, _⟩ => ⟨S100000x16, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x1, .f32⟩
  | .hbm, ⟨74, _⟩ => ⟨S100000x16, .f32⟩
  | .hbm, ⟨75, _⟩ => ⟨S100000x16, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_cst : Ref sig .tc := ⟨.hbm, 58, rfl⟩
abbrev main_call1_v0 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_call2_cst_0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_cst_1 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_v41 : Ref sig .tc := ⟨.hbm, 75, rfl⟩

abbrev nD : Nat := 1
abbrev τ : Topo := Topo.v7x

variable {F : FTy → Type} [FloatOps F]

class Facts₀ : Prop where
  transposes_S64x100000_S100000x64_1_0 : S64x100000.Transposes [1, 0] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KRun.lean ====
/-
  The kernel program's run with its RESULT named.

  The program is two kernel launches among stretches of host operations. Its generated frame follows the TensorCore's
  buffer contents through those four segments — `W0` at launch, `W1` after the first stretch, `W2` after the first launch's
  write-backs, `W3` after the second stretch, `W4` after the second launch's — and states of the final memory only that the
  arguments are as launched. The same run also leaves EVERY unscoped buffer at `W4`'s contents; here that is said of the
  result buffer too: every weakly fair execution terminates with the result at `W4` and the arguments unchanged.
-/
import proofs.«104146_j50491635532438_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the result
    buffer at the last boundary's contents `W4` and every argument array as launched: the segments' launch, the last thread
    state (every unscoped buffer at `W4`) read against the final memory. -/
theorem run_out : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KRun

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibDenseTwo.lean ====
/-
  A dense layer with TWO products, `max (x · wu + a · wv + b, 0)`, read at an entry at the extended reals, in the two
  spellings a program has for it, for arrays of any extents.

  In a kernel body the products accumulate into zero arrays, the bias arrives as a one-row block [1, N] repeated over the
  M rows, and the zero of the clip is a scalar repeated over the block (`kernel_dense2_apply`). On the host the products
  are `dot_general`s, the bias a vector [N] laid out as [1, N] and repeated over the rows, and the zero a rank-0 constant
  repeated over the array (`host_dense2_apply`). Either way entry (p, q) is

      max ((∑ₖ x(p,k)·wu(k,q) + ∑ₖ a(p,k)·wv(k,q)) + b q, 0),

  the zero left as the word it is written with.
-/
import Idealize.ShloMosaic.PureOps.Ideal.Laws
import Idealize.ShloMosaic.Lib.ValueIdx
import Idealize.ShloMosaic.Lib.Pipeline.Value
import proofs.«104146_j50491635532438_1_alg».proof.Proof.LibDotSum

noncomputable section

namespace Cert.LibDenseTwo

open Idealize.ShloMosaic Idealize.ShloMosaic.ValueIdx

/-- A one-row block [1, N] repeated over M rows reads, at (p, q), its entry (0, q). -/
theorem rowBlock_apply {M N : Nat} {α : Type} (b : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix2 (0 : Fin 1) q) := by
  rw [shapeCast_self]
  refine broadcastTo_apply _ hb (ix2 p q) (ix2 (0 : Fin 1) q) fun a => ?_
  match a with
  | ⟨0, _⟩ => rfl
  | ⟨1, _⟩ =>
    show q.val = if N = 1 then 0 else q.val
    split
    · have := q.isLt; omega
    · rfl

/-- A rank-0 constant repeated over a matrix reads its one element everywhere. -/
theorem scalar_bcast_apply {M N : Nat} {α : Type} (v : (⟨0, ![]⟩ : Shape).Idx → α)
    (h : (⟨0, ![]⟩ : Shape).BroadcastsInDim ⟨2, ![M, N]⟩ ![]) (i : (⟨2, ![M, N]⟩ : Shape).Idx) :
    broadcastInDim ⟨2, ![M, N]⟩ ![] h v i = v ix0 :=
  broadcastInDim_apply _ h v i ix0 fun a => a.elim0

/-- The kernel's spelling of the layer at (p, q). -/
theorem kernel_dense2_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (hx : (⟨2, ![M, K]⟩ : Shape).ShapeCasts ⟨2, ![M, K]⟩)
    (hc : (⟨2, ![1, N]⟩ : Shape).ShapeCasts ⟨2, ![1, N]⟩) (hb : (⟨2, ![1, N]⟩ : Shape).Broadcasts ⟨2, ![M, N]⟩)
    (x a : FVec Ideal ⟨2, ![M, K]⟩ .f32) (wu wv : FVec Ideal ⟨2, ![K, N]⟩ .f32) (b : FVec Ideal ⟨2, ![1, N]⟩ .f32)
    (p : Fin M) (q : Fin N) :
    maximumf
        (addf (addf (matmul D none (shapeCast ⟨2, ![M, K]⟩ x hx) wu (constant (F := Ideal) ⟨2, ![M, N]⟩ .f32 0x00000000#32))
            (matmul D none (shapeCast ⟨2, ![M, K]⟩ a hx) wv (constant (F := Ideal) ⟨2, ![M, N]⟩ .f32 0x00000000#32)))
          (broadcastTo ⟨2, ![M, N]⟩ (shapeCast ⟨2, ![1, N]⟩ b hc) hb))
        (broadcast ⟨2, ![M, N]⟩ (Scalar.ofBits (F := Ideal) .f32 0x00000000#32)) (ix2 p q)
      = max ((∑ k : Fin K, x (ix2 p k) * wu (ix2 k q) + ∑ k : Fin K, a (ix2 p k) * wv (ix2 k q)) + b (ix2 (0 : Fin 1) q))
          (Ideal.ofBits .f32 0x00000000#32) := by
  rw [shapeCast_self, shapeCast_self]
  show max ((matmul D none x wu (constant (F := Ideal) ⟨2, ![M, N]⟩ .f32 0x00000000#32) (ix2 p q)
        + matmul D none a wv (constant (F := Ideal) ⟨2, ![M, N]⟩ .f32 0x00000000#32) (ix2 p q))
      + broadcastTo ⟨2, ![M, N]⟩ (shapeCast ⟨2, ![1, N]⟩ b hc) hb (ix2 p q)) (Ideal.ofBits .f32 0x00000000#32) = _
  refine congrArg₂ max (congrArg₂ (· + ·) (congrArg₂ (· + ·) ?_ ?_) (rowBlock_apply b hc hb p q)) rfl
  · exact (Ideal.matmul_constant_zero_apply D none x wu (ix2 p q)).trans (Cert.LibDotSum.sum_dot D hr hs hl0 hl1 hr0 hr1 x wu p q)
  · exact (Ideal.matmul_constant_zero_apply D none a wv (ix2 p q)).trans (Cert.LibDotSum.sum_dot D hr hs hl0 hl1 hr0 hr1 a wv p q)

/-- The host's spelling of the layer at (p, q). -/
theorem host_dense2_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (x a : FVec Ideal ⟨2, ![M, K]⟩ .f32) (wu wv : FVec Ideal ⟨2, ![K, N]⟩ .f32) (b : FVec Ideal ⟨1, ![N]⟩ .f32)
    (p : Fin M) (q : Fin N) :
    maximumf
        (addf (addf (Host.dotGeneral D none x wu) (Host.dotGeneral D none a wv))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = max ((∑ k : Fin K, x (ix2 p k) * wu (ix2 k q) + ∑ k : Fin K, a (ix2 p k) * wv (ix2 k q)) + b (ix1 q))
          (Ideal.ofBits .f32 0x00000000#32) := by
  show max ((Host.dotGeneral D none x wu (ix2 p q) + Host.dotGeneral D none a wv (ix2 p q))
      + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  refine congrArg₂ max (congrArg₂ (· + ·) (congrArg₂ (· + ·) ?_ ?_) (Cert.LibDotSum.bias_apply b h1 h2 p q))
    (scalar_bcast_apply _ h0 (ix2 p q))
  · exact (Ideal.dotGeneral_apply D none .single x wu (ix2 p q)).trans (Cert.LibDotSum.sum_dot D hr hs hl0 hl1 hr0 hr1 x wu p q)
  · exact (Ideal.dotGeneral_apply D none .single a wv (ix2 p q)).trans (Cert.LibDotSum.sum_dot D hr hs hl0 hl1 hr0 hr1 a wv p q)

end Cert.LibDenseTwo

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«104146_j50491635532438_1_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibFoldLast.lean ====
/-
  Minimum and maximum reductions over the LAST axis, read at an index as a fold over that axis's coordinate.

  A `vector.multi_reduction <minimumf>` / `<maximumf>` and the host's one-operand `stablehlo.reduce` with a
  commutative and associative body fold, at a result index, over the set of source indices that drop to it. For the
  last axis of a rank-3 array `[A, B, C]` that set is `{(p, g, k) | k < C}` at the result index `(p, g)`, and for the
  last axis of a matrix `[A, B]` it is `{(p, k) | k < B}` at `p`: the folds below run over `k`, from the starting
  value left as it is written (the pattern of an infinity is never evaluated). All extents are arbitrary, so one
  statement serves a kernel's block and a reference's whole array.
-/
import Idealize.ShloMosaic.PureOps.Ideal.Laws
import Idealize.ShloMosaic.Lib.ValueIdx

noncomputable section

namespace Cert.Lib.FoldLast

open Idealize.ShloMosaic Idealize.ShloMosaic.ValueIdx

/-- The source index over `(p, g)` with `k` inserted on the last axis of a rank-3 shape is `(p, g, k)`. -/
theorem lift_last3 {A B C : Nat} (h : (⟨3, ![A, B, C]⟩ : Shape).Reduces [(2 : Fin 3)] ⟨2, ![A, B]⟩)
    (p : Fin A) (g : Fin B) (k : Fin C) : h.lift (ix2 p g) k = ix3 p g k := by
  funext c
  apply Fin.ext
  match c with
  | ⟨0, _⟩ => rfl
  | ⟨1, _⟩ => rfl
  | ⟨2, _⟩ => rfl

/-- The source index over `p` with `k` inserted on the last axis of a matrix is `(p, k)`. -/
theorem lift_last2 {A B : Nat} (h : (⟨2, ![A, B]⟩ : Shape).Reduces [(1 : Fin 2)] ⟨1, ![A]⟩)
    (p : Fin A) (k : Fin B) : h.lift (ix1 p) k = ix2 p k := by
  funext c
  apply Fin.ext
  match c with
  | ⟨0, _⟩ => rfl
  | ⟨1, _⟩ => rfl

variable {φ : FTy}

/-- A `multi_reduction <minimumf>` over the last axis of `[A, B, C]` at `(p, g)`: the fold of the minimum over `k` of
    the source at `(p, g, k)`. -/
theorem multiReduction_min_last3 {A B C : Nat} (x : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.minimumf.neutral φ hφ) (p : Fin A) (g : Fin B) :
    multiReduction .minimumf [(2 : Fin 3)] ⟨2, ![A, B]⟩ x acc h hφ hacc (ix2 p g)
      = (Finset.univ : Finset (Fin C)).fold FloatOps.minimumf (FloatOps.ofBits φ acc) (fun k => x (ix3 p g k)) := by
  rw [multiReduction_minimumf_eq_fold]
  refine (h.fold_filter_drop_single _ _ x (ix2 p g)).trans ?_
  exact congrArg (fun f => Finset.fold FloatOps.minimumf (FloatOps.ofBits φ acc) f (Finset.univ : Finset (Fin C)))
    (funext fun k => congrArg x (lift_last3 h p g k))

/-- A `multi_reduction <maximumf>` along the rows of `[A, B]` at `p`: the fold of the maximum over `k` of the source
    at `(p, k)`. -/
theorem multiReduction_max_last2 {A B : Nat} (x : FVec Ideal ⟨2, ![A, B]⟩ φ) (acc : BitVec φ.bits)
    (h : (⟨2, ![A, B]⟩ : Shape).Reduces [(1 : Fin 2)] ⟨1, ![A]⟩) (hφ : FKind.Formats φ)
    (hacc : acc = FKind.maximumf.neutral φ hφ) (p : Fin A) :
    multiReduction .maximumf [(1 : Fin 2)] ⟨1, ![A]⟩ x acc h hφ hacc (ix1 p)
      = (Finset.univ : Finset (Fin B)).fold FloatOps.maximumf (FloatOps.ofBits φ acc) (fun k => x (ix2 p k)) := by
  rw [multiReduction_maximumf_eq_fold]
  refine (h.fold_filter_drop_single _ _ x (ix1 p)).trans ?_
  exact congrArg (fun f => Finset.fold FloatOps.maximumf (FloatOps.ofBits φ acc) f (Finset.univ : Finset (Fin B)))
    (funext fun k => congrArg x (lift_last2 h p k))

/-- The host's reduce with a commutative and associative body over the last axis of `[A, B, C]` at `(p, g)`: the fold
    over `k` of the operand at `(p, g, k)`, from the rank-0 initial value's one element. -/
theorem hostReduce_last3 {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce f x init h' hu (ix2 p g)
      = (Finset.univ : Finset (Fin C)).fold f (init (Shape.Idx.first hu)) (fun k => x (ix3 p g k)) := by
  refine (Host.reduce_eq_fold_single f x init h' h hu (ix2 p g)).trans ?_
  exact congrArg (fun y => Finset.fold f (init (Shape.Idx.first hu)) y (Finset.univ : Finset (Fin C)))
    (funext fun k => congrArg x (lift_last3 h p g k))

/-- The same along the rows of a matrix `[A, B]` at `p`. -/
theorem hostReduce_last2 {α : Type} {A B : Nat} {u : Shape} (f : α → α → α) [Std.Commutative f] [Std.Associative f]
    (x : (⟨2, ![A, B]⟩ : Shape).Idx → α) (init : u.Idx → α)
    (h' : (⟨2, ![A, B]⟩ : Shape).ReducesTo [(1 : Fin 2)] ⟨1, ![A]⟩)
    (h : (⟨2, ![A, B]⟩ : Shape).Reduces [(1 : Fin 2)] ⟨1, ![A]⟩) (hu : 0 < u.numel) (p : Fin A) :
    Host.reduce f x init h' hu (ix1 p)
      = (Finset.univ : Finset (Fin B)).fold f (init (Shape.Idx.first hu)) (fun k => x (ix2 p k)) := by
  refine (Host.reduce_eq_fold_single f x init h' h hu (ix1 p)).trans ?_
  exact congrArg (fun y => Finset.fold f (init (Shape.Idx.first hu)) y (Finset.univ : Finset (Fin B)))
    (funext fun k => congrArg x (lift_last2 h p k))

end Cert.Lib.FoldLast

end
-- ==== Proof.LibLogSoftmax.lean ====
/-
  The row-wise log-softmax of a matrix of extended reals, and its two spellings read at an entry, for any extents.

      rowLogSoftmax z (p, q) = (z(p,q) - m p) - log (∑ₖ exp (z(p,k) - m p)),      m p = rowMax z p,

  the maximum of row p folded from -∞. A kernel body spells it with reductions along the rows whose results are laid
  out as columns [A, 1] and repeated along the row (`kernel_logSoftmax_apply`); the host spells it with `reduce`s whose
  results are broadcast through [A] → [A, 1] → [A, B], and takes the greater of -∞ and the fold of the maximum, which is
  the fold (`host_logSoftmax_apply`). Each entry reads its own row only (`rowLogSoftmaxAt_congr`).
-/
import Idealize.ShloMosaic.PureOps.Ideal.Laws
import Idealize.ShloMosaic.Lib.ValueIdx
import Idealize.ShloMosaic.Lib.Pipeline.Value
import proofs.«104146_j50491635532438_1_alg».proof.Proof.LibOuterSum
import proofs.«104146_j50491635532438_1_alg».proof.Proof.LibRowReduce
import proofs.«104146_j50491635532438_1_alg».proof.Proof.LibFoldLast

noncomputable section

namespace Cert.LibLogSoftmax

open Idealize.ShloMosaic Idealize.ShloMosaic.ValueIdx

/-- A matrix of extended reals with `a` rows and `b` columns. -/
abbrev Arr (a b : Nat) : Type := (⟨2, ![a, b]⟩ : Shape).Idx → EReal

/-- The maximum of row `p`, folded from `-∞`. -/
def rowMax {M N : Nat} (z : Arr M N) (p : Fin M) : EReal :=
  (Finset.univ : Finset (Fin N)).fold max (⊥ : EReal) (fun k => z (ix2 p k))

/-- The row-wise log-softmax at row `p`, column `q`. -/
def rowLogSoftmaxAt {M N : Nat} (z : Arr M N) (p : Fin M) (q : Fin N) : EReal :=
  (z (ix2 p q) - rowMax z p) - Ideal.log (∑ k : Fin N, Ideal.exp (z (ix2 p k) - rowMax z p))

/-- The row-wise log-softmax as an array. -/
def rowLogSoftmax {M N : Nat} (z : Arr M N) : Arr M N := fun i => rowLogSoftmaxAt z (i 0) (i 1)

theorem rowLogSoftmax_ix2 {M N : Nat} (z : Arr M N) (p : Fin M) (q : Fin N) :
    rowLogSoftmax z (ix2 p q) = rowLogSoftmaxAt z p q := rfl

/-- The maximum of a row depends on that row only. -/
theorem rowMax_congr {M M' N : Nat} {z : Arr M N} {z' : Arr M' N} (p : Fin M) (p' : Fin M')
    (hz : ∀ k : Fin N, z (ix2 p k) = z' (ix2 p' k)) : rowMax z p = rowMax z' p' := by
  unfold rowMax
  exact congrArg (fun f => (Finset.univ : Finset (Fin N)).fold max (⊥ : EReal) f) (funext hz)

/-- A log-softmax entry depends on its row only. -/
theorem rowLogSoftmaxAt_congr {M M' N : Nat} {z : Arr M N} {z' : Arr M' N} (p : Fin M) (p' : Fin M') (q : Fin N)
    (hz : ∀ k : Fin N, z (ix2 p k) = z' (ix2 p' k)) : rowLogSoftmaxAt z p q = rowLogSoftmaxAt z' p' q := by
  unfold rowLogSoftmaxAt
  rw [rowMax_congr p p' hz, hz q, Finset.sum_congr rfl fun k _ => by rw [hz k]]

/-! ## The kernel's spelling -/

/-- A row's maximum (from -∞), laid out as a column and repeated along the row, at an entry. -/
theorem kernel_rowMax_apply {A B : Nat} (z : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ (multiReduction .maximumf [1] ⟨1, ![A]⟩ z 0xFF800000#32 h hφ hacc) hc) hb (ix2 a b)
      = rowMax z a := by
  rw [Cert.LibRowReduce.stat_bcast_apply, Cert.LibRowReduce.max_row2]
  rfl

/-- The kernel's log-softmax of a block at an entry. -/
theorem kernel_logSoftmax_apply {A B : Nat} (z : FVec Ideal ⟨2, ![A, B]⟩ .f32)
    (h : (⟨2, ![A, B]⟩ : Shape).Reduces [1] ⟨1, ![A]⟩) (hφ : FKind.Formats FTy.f32)
    (hmax : (0xFF800000#32 : BitVec 32) = 0xFF800000#32) (hadd : (0x00000000#32 : BitVec 32) = 0x00000000#32)
    (hc : (⟨1, ![A]⟩ : Shape).ShapeCasts ⟨2, ![A, 1]⟩) (hb : (⟨2, ![A, 1]⟩ : Shape).Broadcasts ⟨2, ![A, B]⟩)
    (a : Fin A) (b : Fin B) :
    subf (subf z (broadcastTo ⟨2, ![A, B]⟩ (shapeCast ⟨2, ![A, 1]⟩ (multiReduction .maximumf [1] ⟨1, ![A]⟩ z 0xFF800000#32 h hφ hmax) hc) hb))
        (broadcastTo ⟨2, ![A, B]⟩
          (log (shapeCast ⟨2, ![A, 1]⟩
            (multiReduction .add [1] ⟨1, ![A]⟩
              (exp (subf z (broadcastTo ⟨2, ![A, B]⟩ (shapeCast ⟨2, ![A, 1]⟩ (multiReduction .maximumf [1] ⟨1, ![A]⟩ z 0xFF800000#32 h hφ hmax) hc) hb)))
              0x00000000#32 h hφ hadd) hc)) hb) (ix2 a b)
      = rowLogSoftmax z (ix2 a b) := by
  have hm : ∀ k : Fin B,
      broadcastTo ⟨2, ![A, B]⟩ (shapeCast ⟨2, ![A, 1]⟩ (multiReduction .maximumf [1] ⟨1, ![A]⟩ z 0xFF800000#32 h hφ hmax) hc) hb (ix2 a k)
        = rowMax z a := fun k => kernel_rowMax_apply z h hφ hmax hc hb a k
  rw [subf_apply, subf_apply, hm b, Cert.LibOuterSum.bcast_col_apply]
  show (z (ix2 a b) - rowMax z a) - Ideal.log (shapeCast ⟨2, ![A, 1]⟩ _ hc (ix2 a (⟨0, Nat.one_pos⟩ : Fin 1))) = _
  rw [Cert.LibOuterSum.col_of_vec_apply, Cert.LibRowReduce.sum_row2, rowLogSoftmax_ix2]
  unfold rowLogSoftmaxAt
  refine congrArg (fun s => (z (ix2 a b) - rowMax z a) - Ideal.log s) (Finset.sum_congr rfl fun k _ => ?_)
  show Ideal.exp (z (ix2 a k) - _) = _
  rw [hm k]

/-! ## The host's spelling -/

/-- A per-row value [A] broadcast through [A, 1] to [A, B] reads, at (a, b), the value of row a. -/
theorem host_stat_apply {A B : Nat} {α : Type} (v : (⟨1, ![A]⟩ : Shape).Idx → α)
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    broadcastInDim ⟨2, ![A, B]⟩ ![0, 1] h2 (broadcastInDim ⟨2, ![A, 1]⟩ ![0] h1 v) (ix2 a b) = v (ix1 a) := by
  refine (broadcastInDim_apply _ h2 _ (ix2 a b) (ix2 a (0 : Fin 1)) fun d => ?_).trans
    (broadcastInDim_apply _ h1 v (ix2 a (0 : Fin 1)) (ix1 a) fun d => ?_)
  · match d with
    | ⟨0, _⟩ =>
      show a.val = if A = 1 then 0 else a.val
      split
      · have := a.isLt; omega
      · rfl
    | ⟨1, _⟩ =>
      show (0 : Nat) = if (1 : Nat) = 1 then 0 else b.val
      rfl
  · match d with
    | ⟨0, _⟩ =>
      show a.val = if A = 1 then 0 else a.val
      split
      · have := a.isLt; omega
      · rfl

/-- The host's row maximum, the greater of -∞ and the fold from -∞, is the fold. -/
theorem host_rowMax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![]) (a : Fin A) :
    maximumf (broadcastInDim ⟨1, ![A]⟩ ![] h0 (constant (F := Ideal) ⟨0, ![]⟩ .f32 0xFF800000#32))
        (Host.reduce FloatOps.maximumf z (constant (F := Ideal) ⟨0, ![]⟩ .f32 0xFF800000#32) hR hu) (ix1 a)
      = rowMax z a := by
  show max (broadcastInDim ⟨1, ![A]⟩ ![] h0 (constant (F := Ideal) ⟨0, ![]⟩ .f32 0xFF800000#32) (ix1 a))
      (Host.reduce (max : EReal → EReal → EReal) z (constant (F := Ideal) ⟨0, ![]⟩ .f32 0xFF800000#32) hR hu (ix1 a)) = _
  rw [Cert.Lib.FoldLast.hostReduce_last2 (max : EReal → EReal → EReal) z _ hR h hu a,
    broadcastInDim_apply _ h0 _ (ix1 a) ix0 fun d => d.elim0]
  show max (Ideal.ofBits .f32 0xFF800000#32) ((Finset.univ : Finset (Fin B)).fold max (Ideal.ofBits .f32 0xFF800000#32) _) = _
  rw [Cert.LibRowReduce.ofBits_neg_inf_f32, max_eq_right bot_le]
  rfl

/-- The host's log-softmax of an array at an entry. -/
theorem host_logSoftmax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    subf (subf z (broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu)))))
        (broadcastInDim ⟨2, ![A, B]⟩ ![0, 1] h2
          (Host.log (broadcastInDim ⟨2, ![A, 1]⟩ ![0] h1
            (Host.reduceAdd
              (Host.exp (subf z (broadcastInDim ⟨2, ![A, B]⟩ ![0, 1] h2 (broadcastInDim ⟨2, ![A, 1]⟩ ![0] h1
                (maximumf (broadcastInDim ⟨1, ![A]⟩ ![] h0 (constant (F := Ideal) ⟨0, ![]⟩ .f32 0xFF800000#32))
                  (Host.reduce FloatOps.maximumf z (constant (F := Ideal) ⟨0, ![]⟩ .f32 0xFF800000#32) hR hu))))))
              (constant (F := Ideal) ⟨0, ![]⟩ .f32 0x00000000#32) hR hu)))) (ix2 a b)
      = rowLogSoftmax z (ix2 a b) := by
  have hm : ∀ k : Fin B,
      broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu))) (ix2 a k)
        = rowMax z a := fun k => (host_stat_apply _ h1 h2 a k).trans (host_rowMax_apply z hR h hu h0 a)
  rw [subf_apply, subf_apply, hm b]
  rw [broadcastInDim_apply (s := ⟨2, ![A, 1]⟩) (t := ⟨2, ![A, B]⟩) ![0, 1] h2 _ (ix2 a b) (ix2 a (0 : Fin 1)) fun d => by
    match d with
    | ⟨0, _⟩ =>
      show a.val = if A = 1 then 0 else a.val
      split
      · have := a.isLt; omega
      · rfl
    | ⟨1, _⟩ =>
      show (0 : Nat) = if (1 : Nat) = 1 then 0 else b.val
      rfl]
  simp only [Host.log]
  rw [broadcastInDim_apply (s := ⟨1, ![A]⟩) (t := ⟨2, ![A, 1]⟩) ![0] h1 _ (ix2 a (0 : Fin 1)) (ix1 a) fun d => by
    match d with
    | ⟨0, _⟩ =>
      show a.val = if A = 1 then 0 else a.val
      split
      · have := a.isLt; omega
      · rfl]
  show (z (ix2 a b) - rowMax z a) - Ideal.log (Ideal.hostReduceAdd hR _ (Ideal.ofBits .f32 0x00000000#32) (ix1 a)) = _
  rw [Ideal.hostReduceAdd_single hR h, Ideal.ofBits_zero_f32, zero_add, rowLogSoftmax_ix2]
  unfold rowLogSoftmaxAt
  refine congrArg (fun s => (z (ix2 a b) - rowMax z a) - Ideal.log s) (Finset.sum_congr rfl fun k _ => ?_)
  rw [Cert.Lib.FoldLast.lift_last2 h a k]
  show Ideal.exp (z (ix2 a k) - _) = _
  rw [hm k]

end Cert.LibLogSoftmax

end
-- ==== Proof.Spec.lean ====
/-
  The two-layer message-passing network as a function of its arrays, entry by entry, over the extended reals.

  With `x` the node features [M, K], `a` their neighbourhood aggregation [M, K], weights `wu`, `wv` of shape [K, N] and a bias
  `b` of N entries, one layer is

      denseRelu x a wu wv b (p, q) = max ((∑ₖ x(p,k)·wu(k,q) + ∑ₖ a(p,k)·wv(k,q)) + b q, 0),

  and the network's result is the row-wise log-softmax of the second layer,

      rowLogSoftmax z (p, q) = (z(p,q) - m p) - log (∑ₖ exp (z(p,k) - m p)),   m p = the maximum of row p (from -∞).

  Both are LOCAL TO A ROW: entry (p, q) reads row p of the row-indexed arrays only. That is what lets a block of rows be
  computed from the same block of rows of the inputs (`denseReluAt_congr`, and `rowLogSoftmaxAt_congr` beside the
  log-softmax). The aggregation is kept abstract here, a function `agg` from feature arrays to feature arrays: `gnn` is the whole network over it.
-/
import Idealize.ShloMosaic.PureOps.Ideal.Laws
import Idealize.ShloMosaic.Lib.ValueIdx
import proofs.«104146_j50491635532438_1_alg».proof.Proof.LibLogSoftmax

noncomputable section

namespace Cert.Spec

open Idealize.ShloMosaic Idealize.ShloMosaic.ValueIdx Cert.LibLogSoftmax

/-- One layer at row `p`, column `q`: the two products summed over the shared axis, plus the bias, clipped below at zero. -/
def denseReluAt {M K N : Nat} (x a : Arr M K) (wu wv : Arr K N) (b : Fin N → EReal) (p : Fin M) (q : Fin N) : EReal :=
  max ((∑ k : Fin K, x (ix2 p k) * wu (ix2 k q) + ∑ k : Fin K, a (ix2 p k) * wv (ix2 k q)) + b q)
    (Ideal.ofBits .f32 0x00000000#32)

/-- One layer as an array. -/
def denseRelu {M K N : Nat} (x a : Arr M K) (wu wv : Arr K N) (b : Fin N → EReal) : Arr M N :=
  fun i => denseReluAt x a wu wv b (i 0) (i 1)

theorem denseRelu_ix2 {M K N : Nat} (x a : Arr M K) (wu wv : Arr K N) (b : Fin N → EReal) (p : Fin M) (q : Fin N) :
    denseRelu x a wu wv b (ix2 p q) = denseReluAt x a wu wv b p q := rfl

/-- The network over an abstract aggregation: the log-softmax of the second layer of the first layer. -/
def gnn (agg : Arr 100000 64 → Arr 100000 64) (x : Arr 100000 64) (wu1 wv1 : Arr 64 64) (b1 : Fin 64 → EReal)
    (wu2 wv2 : Arr 64 16) (b2 : Fin 16 → EReal) : Arr 100000 16 :=
  rowLogSoftmax (denseRelu (denseRelu x (agg x) wu1 wv1 b1) (agg (denseRelu x (agg x) wu1 wv1 b1)) wu2 wv2 b2)

/-- A layer's entry depends on the row of `x` and `a`, the column of the weights and the bias entry it reads, and on
    nothing else: two readings that agree there agree. -/
theorem denseReluAt_congr {M M' K N : Nat} {x a : Arr M K} {x' a' : Arr M' K} {wu wv wu' wv' : Arr K N} {b b' : Fin N → EReal}
    (p : Fin M) (p' : Fin M') (q : Fin N)
    (hx : ∀ k : Fin K, x (ix2 p k) = x' (ix2 p' k)) (ha : ∀ k : Fin K, a (ix2 p k) = a' (ix2 p' k))
    (hu : ∀ k : Fin K, wu (ix2 k q) = wu' (ix2 k q)) (hv : ∀ k : Fin K, wv (ix2 k q) = wv' (ix2 k q))
    (hb : b q = b' q) :
    denseReluAt x a wu wv b p q = denseReluAt x' a' wu' wv' b' p' q := by
  unfold denseReluAt
  have e1 : (fun k : Fin K => x (ix2 p k) * wu (ix2 k q)) = fun k => x' (ix2 p' k) * wu' (ix2 k q) :=
    funext fun k => by rw [hx k, hu k]
  have e2 : (fun k : Fin K => a (ix2 p k) * wv (ix2 k q)) = fun k => a' (ix2 p' k) * wv' (ix2 k q) :=
    funext fun k => by rw [ha k, hv k]
  rw [hb, e1, e2]

/-- The network depends on the aggregation through its values only. -/
theorem gnn_congr {agg agg' : Arr 100000 64 → Arr 100000 64} (h : agg = agg') {x x' : Arr 100000 64} (hx : x = x')
    (wu1 wv1 : Arr 64 64) {b1 b1' : Fin 64 → EReal} (h1 : b1 = b1') (wu2 wv2 : Arr 64 16) {b2 b2' : Fin 16 → EReal} (h2 : b2 = b2') :
    gnn agg x wu1 wv1 b1 wu2 wv2 b2 = gnn agg' x' wu1 wv1 b1' wu2 wv2 b2' := by
  rw [h, hx, h1, h2]

end Cert.Spec

end
-- ==== Proof.KBody.lean ====
/-
  The two kernel bodies as functions of the blocks they load, at the extended reals.

  The first body computes, of a block of 5000 rows of the node features `x` and of their aggregation `a`, the weights and
  the bias row, the layer `max (x · wu + a · wv + b, 0)`; the second computes the same layer with 16 output columns and then
  its row-wise log-softmax. Each is the layer (and the log-softmax) of the specification applied to the blocks.
-/
import proofs.«104146_j50491635532438_1_alg».proof.Proof.Gen.KernelIdeal.Skeleton
import proofs.«104146_j50491635532438_1_alg».proof.Proof.LibDenseTwo
import proofs.«104146_j50491635532438_1_alg».proof.Proof.LibLogSoftmax
import proofs.«104146_j50491635532438_1_alg».proof.Proof.Spec

noncomputable section

namespace Cert.KernelIdeal.KBody

open Cert.KernelIdeal Cert.KernelIdeal.Gen Idealize.ShloMosaic Idealize.ShloMosaic.ValueIdx Cert.LibLogSoftmax Cert.Spec

/-! ## The operand coordinates of the two products: output (p, q) and contraction position k read (p, k) and (k, q) -/

theorem d64_l0 (j : S5000x64.Idx) (k : dot_S5000x64_S64x64_S5000x64_1_0_0_1_n_n.contr.Idx) : (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d64_l1 (j : S5000x64.Idx) (k : dot_S5000x64_S64x64_S5000x64_1_0_0_1_n_n.contr.Idx) : (dot_S5000x64_S64x64_S5000x64_1_0_0_1_n_n.lhsIdx j k 1).val = (k ⟨0, by decide⟩).val :=
  dot_S5000x64_S64x64_S5000x64_1_0_0_1_n_n.lhsIdx_val_of_single rfl j k
theorem d64_r0 (j : S5000x64.Idx) (k : dot_S5000x64_S64x64_S5000x64_1_0_0_1_n_n.contr.Idx) : (dot_S5000x64_S64x64_S5000x64_1_0_0_1_n_n.rhsIdx j k 0).val = (k ⟨0, by decide⟩).val :=
  dot_S5000x64_S64x64_S5000x64_1_0_0_1_n_n.rhsIdx_val_of_single rfl j k
theorem d64_r1 (j : S5000x64.Idx) (k : dot_S5000x64_S64x64_S5000x64_1_0_0_1_n_n.contr.Idx) : (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem d16_l0 (j : S5000x16.Idx) (k : dot_S5000x64_S64x16_S5000x16_1_0_0_1_n_n.contr.Idx) : (dot_S5000x64_S64x16_S5000x16_1_0_0_1_n_n.lhsIdx j k 0).val = (j 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem d16_l1 (j : S5000x16.Idx) (k : dot_S5000x64_S64x16_S5000x16_1_0_0_1_n_n.contr.Idx) : (dot_S5000x64_S64x16_S5000x16_1_0_0_1_n_n.lhsIdx j k 1).val = (k ⟨0, by decide⟩).val :=
  dot_S5000x64_S64x16_S5000x16_1_0_0_1_n_n.lhsIdx_val_of_single rfl j k
theorem d16_r0 (j : S5000x16.Idx) (k : dot_S5000x64_S64x16_S5000x16_1_0_0_1_n_n.contr.Idx) : (dot_S5000x64_S64x16_S5000x16_1_0_0_1_n_n.rhsIdx j k 0).val = (k ⟨0, by decide⟩).val :=
  dot_S5000x64_S64x16_S5000x16_1_0_0_1_n_n.rhsIdx_val_of_single rfl j k
theorem d16_r1 (j : S5000x16.Idx) (k : dot_S5000x64_S64x16_S5000x16_1_0_0_1_n_n.contr.Idx) : (dot_S5000x64_S64x16_S5000x16_1_0_0_1_n_n.rhsIdx j k 1).val = (j 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-! ## The bodies -/

/-- The first body's stored value is the layer of its blocks: rows of `x0` and `x4`, weights `x2` and `x6`, bias row `x9`. -/
theorem pay0_eq (x0 x4 : Vec Ideal S5000x64 .f32) (x2 x6 : Vec Ideal S64x64 .f32) (x9 : Vec Ideal S1x64 .f32) :
    k0_pay1 x0 x2 x4 x6 x9 = denseRelu (M := 5000) (K := 64) (N := 64) x0 x4 x2 x6 (fun q => x9 (ix2 (0 : Fin 1) q)) := by
  funext j
  obtain ⟨p, q, rfl⟩ : ∃ (p : Fin 5000) (q : Fin 64), j = ix2 p q := ⟨j 0, j 1, eq_ix2 j⟩
  exact Cert.LibDenseTwo.kernel_dense2_apply dot_S5000x64_S64x64_S5000x64_1_0_0_1_n_n rfl rfl d64_l0 d64_l1 d64_r0 d64_r1
    shapeCasts_S5000x64_S5000x64 shapeCasts_S1x64_S1x64 broadcasts_S1x64_S5000x64 x0 x4 x2 x6 x9 p q

/-- The second body's layer, before the softmax. -/
theorem dense1_eq (x0 x4 : FVec Ideal S5000x64 .f32) (x2 x6 : FVec Ideal S64x16 .f32) (x9 : FVec Ideal S1x16 .f32) :
    maximumf
        (addf (addf (matmul dot_S5000x64_S64x16_S5000x16_1_0_0_1_n_n none (shapeCast S5000x64 x0 shapeCasts_S5000x64_S5000x64) x2 (constant (F := Ideal) S5000x16 .f32 0x00000000#32))
            (matmul dot_S5000x64_S64x16_S5000x16_1_0_0_1_n_n none (shapeCast S5000x64 x4 shapeCasts_S5000x64_S5000x64) x6 (constant (F := Ideal) S5000x16 .f32 0x00000000#32)))
          (broadcastTo S5000x16 (shapeCast S1x16 x9 shapeCasts_S1x16_S1x16) broadcasts_S1x16_S5000x16))
        (broadcast S5000x16 (Scalar.ofBits (F := Ideal) .f32 0x00000000#32))
      = denseRelu (M := 5000) (K := 64) (N := 16) x0 x4 x2 x6 (fun q => x9 (ix2 (0 : Fin 1) q)) := by
  funext j
  obtain ⟨p, q, rfl⟩ : ∃ (p : Fin 5000) (q : Fin 16), j = ix2 p q := ⟨j 0, j 1, eq_ix2 j⟩
  exact Cert.LibDenseTwo.kernel_dense2_apply dot_S5000x64_S64x16_S5000x16_1_0_0_1_n_n rfl rfl d16_l0 d16_l1 d16_r0 d16_r1
    shapeCasts_S5000x64_S5000x64 shapeCasts_S1x16_S1x16 broadcasts_S1x16_S5000x16 x0 x4 x2 x6 x9 p q

/-- The second body's stored value is the row-wise log-softmax of the layer of its blocks. -/
theorem pay1_eq (x0 x4 : Vec Ideal S5000x64 .f32) (x2 x6 : Vec Ideal S64x16 .f32) (x9 : Vec Ideal S1x16 .f32) :
    k1_pay1 x0 x2 x4 x6 x9
      = rowLogSoftmax (denseRelu (M := 5000) (K := 64) (N := 16) x0 x4 x2 x6 (fun q => x9 (ix2 (0 : Fin 1) q))) := by
  rw [← dense1_eq x0 x4 x2 x6 x9]
  funext j
  obtain ⟨p, q, rfl⟩ : ∃ (p : Fin 5000) (q : Fin 16), j = ix2 p q := ⟨j 0, j 1, eq_ix2 j⟩
  exact kernel_logSoftmax_apply _ reduces_S5000x16_S5000 (.inl rfl) rfl rfl shapeCasts_S5000_S5000x1 broadcasts_S5000x1_S5000x16 p q

end Cert.KernelIdeal.KBody

end
-- ==== Proof.KBlocks.lean ====
/-
  From blocks to arrays: what each of the two kernel launches leaves in its output array.

  Each launch walks 20 grid points; point `t` loads rows 5000·t … 5000·t + 4999 of the node features and of their
  aggregation, the whole weight matrices and the bias row, and stores rows 5000·t … 5000·t + 4999 of the output. A layer's
  entry and a log-softmax's entry read their own row only, so what a point stores is that block of rows of ONE function
  of the whole arrays; the 20 blocks tile the output's 100000 rows, so the array ends holding that function. This is
  stated for ANY contents `V` the launch finds in its buffers.
-/
import proofs.«104146_j50491635532438_1_alg».proof.Proof.Gen.KernelIdeal.Frame
import proofs.«104146_j50491635532438_1_alg».proof.Proof.KBody
import Idealize.ShloMosaic.Lib.Pipeline.Value

set_option maxRecDepth 16384

noncomputable section

namespace Cert.KernelIdeal.KBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibLogSoftmax Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## Launch 0: 64 output columns -/

/-- The index maps of launch 0, decided over its 20 grid points: the row-blocked windows (the features, their aggregation,
    the output) are at block row `t`, the weights and the bias row at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What launch 0 leaves in its output array, as a function of the arrays it finds: the first layer. -/
def out0 (c : Dev nD) : Arr 100000 64 :=
  denseRelu (V c main_v0 : Arr 100000 64) (V c main_v13 : Arr 100000 64) (V c main_arg4 : Arr 64 64) (V c main_arg5 : Arr 64 64)
    (fun q => (V c main_v14 : Arr 1 64) (ix2 (0 : Fin 1) q))

/-- The layer under launch 0's output, read at a row of block `t`: the layer of the blocks at that row. -/
theorem dense0_blk (c : Dev nD) (t : Fin cfg0.N) (p : Fin 5000) (q : Fin 64) (hrow : t.val * 5000 + p.val < 100000) :
    denseReluAt (M := 5000) (K := 64) (N := 64) (iblk0 V c 0 t) (iblk0 V c 1 t) (iblk0 V c 2 t) (iblk0 V c 3 t)
        (fun q => (iblk0 V c 4 t : Arr 1 64) (ix2 (0 : Fin 1) q)) p q
      = denseReluAt (V c main_v0 : Arr 100000 64) (V c main_v13 : Arr 100000 64) (V c main_arg4 : Arr 64 64) (V c main_arg5 : Arr 64 64)
        (fun q => (V c main_v14 : Arr 1 64) (ix2 (0 : Fin 1) q)) (⟨t.val * 5000 + p.val, hrow⟩ : Fin 100000) q := by
  obtain ⟨e00, e01, e10, e11, e20, e21, e30, e31, e40, e41, e50, e51⟩ := idx0 t
  refine denseReluAt_congr p _ q (fun k => ?_) (fun k => ?_) (fun k => ?_) (fun k => ?_) ?_
  · show V c main_v0 (((cfg0.win 0).blk t).view.emb (ix2 p k)) = V c main_v0 (ix2 (⟨t.val * 5000 + p.val, hrow⟩ : Fin 100000) k)
    refine congrArg _ (funext fun d => Fin.ext ?_)
    match d with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  · show V c main_v13 (((cfg0.win 1).blk t).view.emb (ix2 p k)) = V c main_v13 (ix2 (⟨t.val * 5000 + p.val, hrow⟩ : Fin 100000) k)
    refine congrArg _ (funext fun d => Fin.ext ?_)
    match d with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  · show V c main_arg4 (((cfg0.win 2).blk t).view.emb (ix2 k q)) = V c main_arg4 (ix2 k q)
    refine congrArg _ (funext fun d => Fin.ext ?_)
    match d with
    | ⟨0, _⟩ => show win0_2.index t (0 : Fin 2) * 64 + 1 * k.val = k.val; rw [e20]; omega
    | ⟨1, _⟩ => show win0_2.index t (1 : Fin 2) * 64 + 1 * q.val = q.val; rw [e21]; omega
  · show V c main_arg5 (((cfg0.win 3).blk t).view.emb (ix2 k q)) = V c main_arg5 (ix2 k q)
    refine congrArg _ (funext fun d => Fin.ext ?_)
    match d with
    | ⟨0, _⟩ => show win0_3.index t (0 : Fin 2) * 64 + 1 * k.val = k.val; rw [e30]; omega
    | ⟨1, _⟩ => show win0_3.index t (1 : Fin 2) * 64 + 1 * q.val = q.val; rw [e31]; omega
  · show V c main_v14 (((cfg0.win 4).blk t).view.emb (ix2 (0 : Fin 1) q)) = V c main_v14 (ix2 (0 : Fin 1) q)
    refine congrArg _ (funext fun d => Fin.ext ?_)
    match d with
    | ⟨0, _⟩ => show win0_4.index t (0 : Fin 2) * 1 + 1 * 0 = 0; rw [e40]
    | ⟨1, _⟩ => show win0_4.index t (1 : Fin 2) * 64 + 1 * q.val = q.val; rw [e41]; omega

/-- What grid point `t` of launch 0 writes back is block `t` of `out0`. -/
theorem flushed0 (c : Dev nD) (t : Fin cfg0.N) :
    (dat0 V c).flushed 5 t = ((cfg0.win 5).blk t).view.read (Elt Ideal) (out0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx0 t
  have hN : cfg0.N = 20 := N_0
  funext j
  obtain ⟨p, q, rfl⟩ : ∃ (p : Fin 5000) (q : Fin 64), j = ix2 p q := ⟨j 0, j 1, eq_ix2 j⟩
  have hrow : t.val * 5000 + p.val < 100000 := by have := t.isLt; have := p.isLt; omega
  have hi : ((cfg0.win 5).blk t).view.emb (ix2 p q) = ix2 (⟨t.val * 5000 + p.val, hrow⟩ : Fin 100000) q := by
    funext d
    apply Fin.ext
    match d with
    | ⟨0, _⟩ => show win0_5.index t (0 : Fin 2) * 5000 + 1 * p.val = t.val * 5000 + p.val; rw [e50]; omega
    | ⟨1, _⟩ => show win0_5.index t (1 : Fin 2) * 64 + 1 * q.val = q.val; rw [e51]; omega
  refine (congrFun (KBody.pay0_eq (iblk0 V c 0 t) (iblk0 V c 1 t) (iblk0 V c 2 t) (iblk0 V c 3 t) (iblk0 V c 4 t)) (ix2 p q)).trans ?_
  show _ = out0 V c (((cfg0.win 5).blk t).view.emb (ix2 p q))
  rw [hi]
  unfold out0
  rw [denseRelu_ix2, denseRelu_ix2]
  exact dense0_blk V c t p q hrow

/-- Every row of the output array is in some grid point's block: row `r` in that of point `r / 5000`. -/
theorem cover0 (i : S100000x64.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  have hlt : (i 0).val / 5000 < cfg0.N := by omega
  refine ⟨⟨(i 0).val / 5000, hlt⟩, flush0_5 _, ?_⟩
  obtain ⟨e00, e01, e10, e11, e20, e21, e30, e31, e40, e41, e50, e51⟩ := idx0 ⟨(i 0).val / 5000, hlt⟩
  show i ∈ ((View.whole main_v15).slice (win0_5.rect ⟨(i 0).val / 5000, hlt⟩)).set
  rw [View.set_slice_whole, Rect.mem_set_unit]
  intro d
  match d with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e51]
    omega

/-- After launch 0 its output array holds `out0` of the arrays the launch found. -/
theorem final0 (c : Dev nD) : (dat0 V c).arrAt 5 cfg0.N = out0 V c :=
  (dat0 V c).arrAt_eq_of_cover 5 (out0 V c) (fun t _ => flushed0 V c t) (cover0)

/-! ## Launch 1: 16 output columns -/

/-- The index maps of launch 1, decided over its 20 grid points: the row-blocked windows (the features, their aggregation,
    the output) are at block row `t`, the weights and the bias row at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What launch 1 leaves in its output array, as a function of the arrays it finds: the row-wise log-softmax of the second layer. -/
def out1 (c : Dev nD) : Arr 100000 16 :=
  rowLogSoftmax (denseRelu (V c main_v15 : Arr 100000 64) (V c main_v28 : Arr 100000 64) (V c main_arg7 : Arr 64 16) (V c main_arg8 : Arr 64 16)
    (fun q => (V c main_v29 : Arr 1 16) (ix2 (0 : Fin 1) q)))

/-- The layer under launch 1's output, read at a row of block `t`: the layer of the blocks at that row. -/
theorem dense1_blk (c : Dev nD) (t : Fin cfg1.N) (p : Fin 5000) (q : Fin 16) (hrow : t.val * 5000 + p.val < 100000) :
    denseReluAt (M := 5000) (K := 64) (N := 16) (iblk1 V c 0 t) (iblk1 V c 1 t) (iblk1 V c 2 t) (iblk1 V c 3 t)
        (fun q => (iblk1 V c 4 t : Arr 1 16) (ix2 (0 : Fin 1) q)) p q
      = denseReluAt (V c main_v15 : Arr 100000 64) (V c main_v28 : Arr 100000 64) (V c main_arg7 : Arr 64 16) (V c main_arg8 : Arr 64 16)
        (fun q => (V c main_v29 : Arr 1 16) (ix2 (0 : Fin 1) q)) (⟨t.val * 5000 + p.val, hrow⟩ : Fin 100000) q := by
  obtain ⟨e00, e01, e10, e11, e20, e21, e30, e31, e40, e41, e50, e51⟩ := idx1 t
  refine denseReluAt_congr p _ q (fun k => ?_) (fun k => ?_) (fun k => ?_) (fun k => ?_) ?_
  · show V c main_v15 (((cfg1.win 0).blk t).view.emb (ix2 p k)) = V c main_v15 (ix2 (⟨t.val * 5000 + p.val, hrow⟩ : Fin 100000) k)
    refine congrArg _ (funext fun d => Fin.ext ?_)
    match d with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_v28 (((cfg1.win 1).blk t).view.emb (ix2 p k)) = V c main_v28 (ix2 (⟨t.val * 5000 + p.val, hrow⟩ : Fin 100000) k)
    refine congrArg _ (funext fun d => Fin.ext ?_)
    match d with
    | ⟨0, _⟩ => show win1_1.index t (0 : Fin 2) * 5000 + 1 * p.val = t.val * 5000 + p.val; rw [e10]; omega
    | ⟨1, _⟩ => show win1_1.index t (1 : Fin 2) * 64 + 1 * k.val = k.val; rw [e11]; omega
  · show V c main_arg7 (((cfg1.win 2).blk t).view.emb (ix2 k q)) = V c main_arg7 (ix2 k q)
    refine congrArg _ (funext fun d => Fin.ext ?_)
    match d with
    | ⟨0, _⟩ => show win1_2.index t (0 : Fin 2) * 64 + 1 * k.val = k.val; rw [e20]; omega
    | ⟨1, _⟩ => show win1_2.index t (1 : Fin 2) * 16 + 1 * q.val = q.val; rw [e21]; omega
  · show V c main_arg8 (((cfg1.win 3).blk t).view.emb (ix2 k q)) = V c main_arg8 (ix2 k q)
    refine congrArg _ (funext fun d => Fin.ext ?_)
    match d with
    | ⟨0, _⟩ => show win1_3.index t (0 : Fin 2) * 64 + 1 * k.val = k.val; rw [e30]; omega
    | ⟨1, _⟩ => show win1_3.index t (1 : Fin 2) * 16 + 1 * q.val = q.val; rw [e31]; omega
  · show V c main_v29 (((cfg1.win 4).blk t).view.emb (ix2 (0 : Fin 1) q)) = V c main_v29 (ix2 (0 : Fin 1) q)
    refine congrArg _ (funext fun d => Fin.ext ?_)
    match d with
    | ⟨0, _⟩ => show win1_4.index t (0 : Fin 2) * 1 + 1 * 0 = 0; rw [e40]
    | ⟨1, _⟩ => show win1_4.index t (1 : Fin 2) * 16 + 1 * q.val = q.val; rw [e41]; omega

/-- What grid point `t` of launch 1 writes back is block `t` of `out1`. -/
theorem flushed1 (c : Dev nD) (t : Fin cfg1.N) :
    (dat1 V c).flushed 5 t = ((cfg1.win 5).blk t).view.read (Elt Ideal) (out1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x16) hz, View.ld_unit_zero (S := S1x16) hz]
  obtain ⟨e00, e01, e10, e11, e20, e21, e30, e31, e40, e41, e50, e51⟩ := idx1 t
  have hN : cfg1.N = 20 := N_1
  funext j
  obtain ⟨p, q, rfl⟩ : ∃ (p : Fin 5000) (q : Fin 16), j = ix2 p q := ⟨j 0, j 1, eq_ix2 j⟩
  have hrow : t.val * 5000 + p.val < 100000 := by have := t.isLt; have := p.isLt; omega
  have hi : ((cfg1.win 5).blk t).view.emb (ix2 p q) = ix2 (⟨t.val * 5000 + p.val, hrow⟩ : Fin 100000) q := by
    funext d
    apply Fin.ext
    match d with
    | ⟨0, _⟩ => show win1_5.index t (0 : Fin 2) * 5000 + 1 * p.val = t.val * 5000 + p.val; rw [e50]; omega
    | ⟨1, _⟩ => show win1_5.index t (1 : Fin 2) * 16 + 1 * q.val = q.val; rw [e51]; omega
  refine (congrFun (KBody.pay1_eq (iblk1 V c 0 t) (iblk1 V c 1 t) (iblk1 V c 2 t) (iblk1 V c 3 t) (iblk1 V c 4 t)) (ix2 p q)).trans ?_
  show _ = out1 V c (((cfg1.win 5).blk t).view.emb (ix2 p q))
  rw [hi]
  unfold out1
  rw [rowLogSoftmax_ix2, rowLogSoftmax_ix2]
  refine rowLogSoftmaxAt_congr p _ q fun k => ?_
  rw [denseRelu_ix2, denseRelu_ix2]
  exact dense1_blk V c t p k hrow

/-- Every row of the output array is in some grid point's block: row `r` in that of point `r / 5000`. -/
theorem cover1 (i : S100000x16.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 16 := (i 1).isLt
  have hlt : (i 0).val / 5000 < cfg1.N := by omega
  refine ⟨⟨(i 0).val / 5000, hlt⟩, flush1_5 _, ?_⟩
  obtain ⟨e00, e01, e10, e11, e20, e21, e30, e31, e40, e41, e50, e51⟩ := idx1 ⟨(i 0).val / 5000, hlt⟩
  show i ∈ ((View.whole main_v30).slice (win1_5.rect ⟨(i 0).val / 5000, hlt⟩)).set
  rw [View.set_slice_whole, Rect.mem_set_unit]
  intro d
  match d with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 16 ≤ (i 1).val ∧ (i 1).val < win1_5.index ⟨(i 0).val / 5000, hlt⟩ (1 : Fin 2) * 16 + 16
    rw [e51]
    omega

/-- After launch 1 its output array holds `out1` of the arrays the launch found. -/
theorem final1 (c : Dev nD) : (dat1 V c).arrAt 5 cfg1.N = out1 V c :=
  (dat1 V c).arrAt_eq_of_cover 5 (out1 V c) (fun t _ => flushed1 V c t) (cover1)

end Cert.KernelIdeal.KBlocks

end
-- ==== Proof.LibRowOfVec.lean ====
/-
  A vector laid out as a single row.

  A host `reshape` of a vector of `a` entries to the shape `[1, a]` keeps the entries in order: entry `(0, i)` of the row is
  entry `i` of the vector (`row_of_vec_apply`). It is the row twin of the column form `[a] → [a, 1]`.
-/
import Idealize.ShloMosaic.Lib.Pipeline.Value
import Idealize.ShloMosaic.Lib.ValueIdx

noncomputable section

namespace Cert.LibRowOfVec

open Idealize.ShloMosaic Idealize.ShloMosaic.ValueIdx

/-- A vector `[a]` cast to a row `[1, a]`: entry (u, i) is the vector's entry i. -/
theorem row_of_vec_apply {a : Nat} {α : Type} (x : (⟨1, ![a]⟩ : Shape).Idx → α)
    (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_one, Shape.rowMajor_val_two]
    show i.val = u.val * a + i.val
    rw [hu, Nat.zero_mul, Nat.zero_add])

end Cert.LibRowOfVec

end
-- ==== Proof.KValue.lean ====
/-
  The kernel program's result as the network of the specification.

  Between the launches the host prepares each launch's operands: before the first, the node features transposed to rows,
  their aggregation and the first bias as a row; before the second, the aggregation of the first launch's output and the
  second bias as a row. Reading those stretches, and each launch's output array as the layer (then the log-softmax) of the
  arrays it found, the result buffer after the run holds `gnn` of the arguments over the host's own aggregation.
-/
import proofs.«104146_j50491635532438_1_alg».proof.Proof.KRun
import proofs.«104146_j50491635532438_1_alg».proof.Proof.KBlocks
import proofs.«104146_j50491635532438_1_alg».proof.Proof.LibRowOfVec
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Cert.LibLogSoftmax Cert.Spec

/-- Neighbourhood aggregation of a feature array `x` [nodes, 64], as the host computes it: gather row `src e` of `x` for every
    edge `e` (a negative index wrapped once by the node count), scale it by `val e`, add it into row `dst e` of a zero array. -/
def agg {F : FTy → Type} [FloatOps F] (src dst : (⟨S1600000, .i32⟩ : BufTy).Contents (Elt F)) (val : (⟨S1600000, .f32⟩ : BufTy).Contents (Elt F))
    (x : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 val)))

/-- The node features as rows: the argument [64, nodes] transposed. -/
def nodes {F : FTy → Type} [FloatOps F] (x0 : (⟨S64x100000, .f32⟩ : BufTy).Contents (Elt F)) : (⟨S100000x64, .f32⟩ : BufTy).Contents (Elt F) :=
  transpose S100000x64 [1, 0] x0 transposes_S64x100000_S100000x64_1_0

set_option maxRecDepth 65536 in
set_option maxHeartbeats 4000000 in
/-- The host operations before the first launch, from any buffer contents `W`: the three operands they prepare, and the
    arguments they leave alone. -/
theorem host0 (W : Valuation τ sig (Elt Ideal)) :
    after hostOps0 W (Proc.devRef .tc main_v0) = nodes (F := Ideal) (W (Proc.devRef .tc main_arg0))
    ∧ after hostOps0 W (Proc.devRef .tc main_v13)
        = agg (F := Ideal) (W (Proc.devRef .tc main_arg1)) (W (Proc.devRef .tc main_arg2)) (W (Proc.devRef .tc main_arg3)) (nodes (F := Ideal) (W (Proc.devRef .tc main_arg0)))
    ∧ after hostOps0 W (Proc.devRef .tc main_v14) = (fun i => shapeCast S1x64 (W (Proc.devRef .tc main_arg6)) shapeCasts_S64_S1x64 i)
    ∧ after hostOps0 W (Proc.devRef .tc main_arg4) = W (Proc.devRef .tc main_arg4)
    ∧ after hostOps0 W (Proc.devRef .tc main_arg5) = W (Proc.devRef .tc main_arg5)
    ∧ after hostOps0 W (Proc.devRef .tc main_arg1) = W (Proc.devRef .tc main_arg1)
    ∧ after hostOps0 W (Proc.devRef .tc main_arg2) = W (Proc.devRef .tc main_arg2)
    ∧ after hostOps0 W (Proc.devRef .tc main_arg3) = W (Proc.devRef .tc main_arg3)
    ∧ after hostOps0 W (Proc.devRef .tc main_arg7) = W (Proc.devRef .tc main_arg7)
    ∧ after hostOps0 W (Proc.devRef .tc main_arg8) = W (Proc.devRef .tc main_arg8)
    ∧ after hostOps0 W (Proc.devRef .tc main_arg9) = W (Proc.devRef .tc main_arg9) := by
  refine ⟨?_, ?_, ?_, ?_, ?_, ?_, ?_, ?_, ?_, ?_, ?_⟩ <;> (after_results_simp <;> rfl)

set_option maxRecDepth 65536 in
set_option maxHeartbeats 4000000 in
/-- The host operations between the launches, from any buffer contents `W`: the first launch's output untouched, its
    aggregation, the second bias as a row, and the second launch's weights left alone. -/
theorem host1 (W : Valuation τ sig (Elt Ideal)) :
    after hostOps1 W (Proc.devRef .tc main_v15) = W (Proc.devRef .tc main_v15)
    ∧ after hostOps1 W (Proc.devRef .tc main_v28)
        = agg (F := Ideal) (W (Proc.devRef .tc main_arg1)) (W (Proc.devRef .tc main_arg2)) (W (Proc.devRef .tc main_arg3)) (W (Proc.devRef .tc main_v15))
    ∧ after hostOps1 W (Proc.devRef .tc main_v29) = (fun i => shapeCast S1x16 (W (Proc.devRef .tc main_arg9)) shapeCasts_S16_S1x16 i)
    ∧ after hostOps1 W (Proc.devRef .tc main_arg7) = W (Proc.devRef .tc main_arg7)
    ∧ after hostOps1 W (Proc.devRef .tc main_arg8) = W (Proc.devRef .tc main_arg8) := by
  refine ⟨?_, ?_, ?_, ?_, ?_⟩ <;> (after_results_simp <;> rfl)

variable (m : (ℓ : Loc nD τ sig) → Buf (Elt Ideal) ℓ) (ρ : Dev nD → PrngReg)

/-- The first launch's output array after it: the first layer of the node features and their aggregation. -/
theorem hidden_eq (c : Dev nD) :
    W2 m ρ c (Proc.devRef .tc main_v15)
      = denseRelu (nodes (F := Ideal) (m ((c : Thread nD τ).loc main_arg0))) (agg (F := Ideal) (m ((c : Thread nD τ).loc main_arg1)) (m ((c : Thread nD τ).loc main_arg2)) (m ((c : Thread nD τ).loc main_arg3)) (nodes (F := Ideal) (m ((c : Thread nD τ).loc main_arg0))))
          (m ((c : Thread nD τ).loc main_arg4)) (m ((c : Thread nD τ).loc main_arg5)) (fun q => (m ((c : Thread nD τ).loc main_arg6)) (ix1 q)) := by
  obtain ⟨a0, a13, a14, k4, k5, -, -, -, -, -, -⟩ := host0 (W0 m ρ c)
  refine (W2_arr m ρ c 5).trans ((KBlocks.final0 (V1 m ρ) c).trans ?_)
  unfold KBlocks.out0
  show denseRelu (after hostOps0 (W0 m ρ c) (Proc.devRef .tc main_v0)) (after hostOps0 (W0 m ρ c) (Proc.devRef .tc main_v13))
      (after hostOps0 (W0 m ρ c) (Proc.devRef .tc main_arg4)) (after hostOps0 (W0 m ρ c) (Proc.devRef .tc main_arg5))
      (fun q => after hostOps0 (W0 m ρ c) (Proc.devRef .tc main_v14) (ix2 (0 : Fin 1) q)) = _
  rw [a0, a13, a14, k4, k5]
  have hb : (fun q : Fin 64 => shapeCast S1x64 (W0 m ρ c (Proc.devRef .tc main_arg6)) shapeCasts_S64_S1x64 (ix2 (0 : Fin 1) q))
      = fun q => (m ((c : Thread nD τ).loc main_arg6)) (ix1 q) :=
    funext fun q => Cert.LibRowOfVec.row_of_vec_apply _ shapeCasts_S64_S1x64 0 q
  rw [hb]

/-- THE RESULT: after the run the result buffer holds the network of the arguments, over the host's aggregation. -/
theorem value (c : Dev nD) :
    W4 m ρ c (Proc.devRef .tc main_v30)
      = gnn (agg (F := Ideal) (m ((c : Thread nD τ).loc main_arg1)) (m ((c : Thread nD τ).loc main_arg2)) (m ((c : Thread nD τ).loc main_arg3))) (nodes (F := Ideal) (m ((c : Thread nD τ).loc main_arg0)))
          (m ((c : Thread nD τ).loc main_arg4)) (m ((c : Thread nD τ).loc main_arg5)) (fun q => (m ((c : Thread nD τ).loc main_arg6)) (ix1 q))
          (m ((c : Thread nD τ).loc main_arg7)) (m ((c : Thread nD τ).loc main_arg8)) (fun q => (m ((c : Thread nD τ).loc main_arg9)) (ix1 q)) := by
  obtain ⟨-, -, -, -, -, k1, k2, k3, k7, k8, k9⟩ := host0 (W0 m ρ c)
  obtain ⟨b15, b28, b29, j7, j8⟩ := host1 (W2 m ρ c)
  have w2 : ∀ (b : Ref sig .tc), (∀ w, Pipeline.arrRef spec0 w ≠ b) →
      W2 m ρ c (Proc.devRef .tc b) = after hostOps0 (W0 m ρ c) (Proc.devRef .tc b) := fun b hb => W2_of_ne m ρ c b hb
  have e1 : W2 m ρ c (Proc.devRef .tc main_arg1) = (m ((c : Thread nD τ).loc main_arg1)) := (w2 main_arg1 (by decide)).trans k1
  have e2 : W2 m ρ c (Proc.devRef .tc main_arg2) = (m ((c : Thread nD τ).loc main_arg2)) := (w2 main_arg2 (by decide)).trans k2
  have e3 : W2 m ρ c (Proc.devRef .tc main_arg3) = (m ((c : Thread nD τ).loc main_arg3)) := (w2 main_arg3 (by decide)).trans k3
  have e7 : W2 m ρ c (Proc.devRef .tc main_arg7) = (m ((c : Thread nD τ).loc main_arg7)) := (w2 main_arg7 (by decide)).trans k7
  have e8 : W2 m ρ c (Proc.devRef .tc main_arg8) = (m ((c : Thread nD τ).loc main_arg8)) := (w2 main_arg8 (by decide)).trans k8
  have e9 : W2 m ρ c (Proc.devRef .tc main_arg9) = (m ((c : Thread nD τ).loc main_arg9)) := (w2 main_arg9 (by decide)).trans k9
  refine (W4_arr m ρ c 5).trans ((KBlocks.final1 (V3 m ρ) c).trans ?_)
  unfold KBlocks.out1 gnn
  show rowLogSoftmax (denseRelu (after hostOps1 (W2 m ρ c) (Proc.devRef .tc main_v15)) (after hostOps1 (W2 m ρ c) (Proc.devRef .tc main_v28))
      (after hostOps1 (W2 m ρ c) (Proc.devRef .tc main_arg7)) (after hostOps1 (W2 m ρ c) (Proc.devRef .tc main_arg8))
      (fun q => after hostOps1 (W2 m ρ c) (Proc.devRef .tc main_v29) (ix2 (0 : Fin 1) q))) = _
  rw [b15, b28, b29, j7, j8, e1, e2, e3, e7, e8, e9, hidden_eq m ρ c]
  have hb : (fun q : Fin 16 => shapeCast S1x16 (m ((c : Thread nD τ).loc main_arg9)) shapeCasts_S16_S1x16 (ix2 (0 : Fin 1) q))
      = fun q => (m ((c : Thread nD τ).loc main_arg9)) (ix1 q) :=
    funext fun q => Cert.LibRowOfVec.row_of_vec_apply _ shapeCasts_S16_S1x16 0 q
  rw [hb]

/-- The run, read: every weakly fair execution terminates with the result buffer at the network of the arguments and the
    arguments unchanged. -/
theorem run : θ_run defs (onTc (τ := τ) (main (F := Ideal))) ⟨m, fun _ => 0, ρ⟩ (fun r => ∀ c : Dev nD,
      r.2.mem ((c.tc : Thread nD τ).loc main_v30)
        = gnn (agg (F := Ideal) (m ((c : Thread nD τ).loc main_arg1)) (m ((c : Thread nD τ).loc main_arg2)) (m ((c : Thread nD τ).loc main_arg3))) (nodes (F := Ideal) (m ((c : Thread nD τ).loc main_arg0)))
          (m ((c : Thread nD τ).loc main_arg4)) (m ((c : Thread nD τ).loc main_arg5)) (fun q => (m ((c : Thread nD τ).loc main_arg6)) (ix1 q))
          (m ((c : Thread nD τ).loc main_arg7)) (m ((c : Thread nD τ).loc main_arg8)) (fun q => (m ((c : Thread nD τ).loc main_arg9)) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (KRun.run_out m ρ)

end Cert.KernelIdeal.KValue

end
-- ==== Proof.RefRun.lean ====
/-
  The reference program's run, read back as one term of its arguments.

  The reference is a straight line of host operations. Written with X the node features transposed to [nodes, features],
  a layer is
      layer x W_u W_v b = max (x · W_u + agg x · W_v + b, 0),
  where `agg x` gathers the rows of `x` named by the (wrapped) source indices, scales each by its edge value, and adds them
  into the rows named by the destination indices, starting from zero. The result is the row-wise log-softmax of
  `layer (layer X …) …`:  z - m - log (∑ exp (z - m))  with m the row's maximum.
  Every weakly fair execution of the program terminates with its result buffer at that term and its arguments unchanged.
-/
import proofs.«104146_j50491635532438_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as three stretches of host operations -/

/-- The first layer: the transpose, the aggregation of the node features, the two products, the bias and the clip. -/
abbrev ops1 : List (HloOp τ sig (Elt F)) :=
  [ unary main_arg0 main_v0 ((transpose S100000x64 [1, 0] · transposes_S64x100000_S100000x64_1_0) : (⟨S64x100000, .f32⟩ : BufTy).Contents (Elt F) → (⟨S100000x64, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v0 main_arg4 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v13 main_arg5 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v14 main_v15 main_v16 (addf : (⟨S100000x64, .f32⟩ : BufTy).Contents (Elt F) → (⟨S100000x64, .f32⟩ : BufTy).Contents (Elt F) → (⟨S100000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S100000x64 ![0, 1] bcast_S1x64_S100000x64_0_1 : (⟨S1x64, .f32⟩ : BufTy).Contents (Elt F) → (⟨S100000x64, .f32⟩ : BufTy).Contents (Elt F)),
    binary main_v16 main_v18 main_v19 (addf : (⟨S100000x64, .f32⟩ : BufTy).Contents (Elt F) → (⟨S100000x64, .f32⟩ : BufTy).Contents (Elt F) → (⟨S100000x64, .f32⟩ : BufTy).Contents (Elt F)),
    nullary main_call0_cst ((constant S_ .f32 0x00000000#32) : (⟨S_, .f32⟩ : BufTy).Contents (Elt F)),
    unary main_call0_cst main_call0_v0 ((broadcastInDim S100000x64 ![] bcast_S_S100000x64) : (⟨S_, .f32⟩ : BufTy).Contents (Elt F) → (⟨S100000x64, .f32⟩ : BufTy).Contents (Elt F)),
    binary main_v19 main_call0_v0 main_v20 ((maximumf) : (⟨S100000x64, .f32⟩ : BufTy).Contents (Elt F) → (⟨S100000x64, .f32⟩ : BufTy).Contents (Elt F) → (⟨S100000x64, .f32⟩ : BufTy).Contents (Elt F)) ]

/-- The second layer before the softmax: the aggregation of the hidden features, the two products, the bias and the clip. -/
abbrev ops2 : List (HloOp τ sig (Elt F)) :=
  [ nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_arg1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_arg1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v28 (broadcastInDim S1600000x1 ![0] bcast_S1600000_S1600000x1_0 : (⟨S1600000, .f32⟩ : BufTy).Contents (Elt F) → (⟨S1600000x1, .f32⟩ : BufTy).Contents (Elt F)),
    unary main_v28 main_v29 (broadcastInDim S1600000x64 ![0, 1] bcast_S1600000x1_S1600000x64_0_1 : (⟨S1600000x1, .f32⟩ : BufTy).Contents (Elt F) → (⟨S1600000x64, .f32⟩ : BufTy).Contents (Elt F)),
    binary main_v27 main_v29 main_v30 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v31 (broadcastInDim S100000x64 ![] bcast_S_S100000x64 : (⟨S_, .f32⟩ : BufTy).Contents (Elt F) → (⟨S100000x64, .f32⟩ : BufTy).Contents (Elt F)),
    unary main_arg2 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v20 main_arg7 main_v34 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v33 main_arg8 main_v35 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v34 main_v35 main_v36 (addf : (⟨S100000x16, .f32⟩ : BufTy).Contents (Elt F) → (⟨S100000x16, .f32⟩ : BufTy).Contents (Elt F) → (⟨S100000x16, .f32⟩ : BufTy).Contents (Elt F)),
    unary main_arg9 main_v37 (broadcastInDim S1x16 ![1] bcast_S16_S1x16_1 : (⟨S16, .f32⟩ : BufTy).Contents (Elt F) → (⟨S1x16, .f32⟩ : BufTy).Contents (Elt F)),
    unary main_v37 main_v38 (broadcastInDim S100000x16 ![0, 1] bcast_S1x16_S100000x16_0_1 : (⟨S1x16, .f32⟩ : BufTy).Contents (Elt F) → (⟨S100000x16, .f32⟩ : BufTy).Contents (Elt F)),
    binary main_v36 main_v38 main_v39 (addf : (⟨S100000x16, .f32⟩ : BufTy).Contents (Elt F) → (⟨S100000x16, .f32⟩ : BufTy).Contents (Elt F) → (⟨S100000x16, .f32⟩ : BufTy).Contents (Elt F)),
    nullary main_call1_cst ((constant S_ .f32 0x00000000#32) : (⟨S_, .f32⟩ : BufTy).Contents (Elt F)),
    unary main_call1_cst main_call1_v0 ((broadcastInDim S100000x16 ![] bcast_S_S100000x16) : (⟨S_, .f32⟩ : BufTy).Contents (Elt F) → (⟨S100000x16, .f32⟩ : BufTy).Contents (Elt F)),
    binary main_v39 main_call1_v0 main_v40 ((maximumf) : (⟨S100000x16, .f32⟩ : BufTy).Contents (Elt F) → (⟨S100000x16, .f32⟩ : BufTy).Contents (Elt F) → (⟨S100000x16, .f32⟩ : BufTy).Contents (Elt F)) ]

/-- The row-wise log-softmax. -/
abbrev ops3 : List (HloOp τ sig (Elt F)) :=
  [ nullary main_call2_cst ((constant S_ .f32 0xFF800000#32) : (⟨S_, .f32⟩ : BufTy).Contents (Elt F)),
    binary main_v40 main_call2_cst main_call2_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x16 ![0, 1] bcast_S100000x1_S100000x16_0_1) : (⟨S100000x1, .f32⟩ : BufTy).Contents (Elt F) → (⟨S100000x16, .f32⟩ : BufTy).Contents (Elt F)),
    binary main_v40 main_call2_v4 main_call2_v5 ((subf) : (⟨S100000x16, .f32⟩ : BufTy).Contents (Elt F) → (⟨S100000x16, .f32⟩ : BufTy).Contents (Elt F) → (⟨S100000x16, .f32⟩ : BufTy).Contents (Elt F)),
    unary main_call2_v5 main_call2_v6 ((Host.exp) : (⟨S100000x16, .f32⟩ : BufTy).Contents (Elt F) → (⟨S100000x16, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 ((Host.log) : (⟨S100000x1, .f32⟩ : BufTy).Contents (Elt F) → (⟨S100000x1, .f32⟩ : BufTy).Contents (Elt F)),
    unary main_call2_v9 main_call2_v10 ((broadcastInDim S100000x16 ![0, 1] bcast_S100000x1_S100000x16_0_1) : (⟨S100000x1, .f32⟩ : BufTy).Contents (Elt F) → (⟨S100000x16, .f32⟩ : BufTy).Contents (Elt F)),
    binary main_call2_v5 main_call2_v10 main_v41 ((subf) : (⟨S100000x16, .f32⟩ : BufTy).Contents (Elt F) → (⟨S100000x16, .f32⟩ : BufTy).Contents (Elt F) → (⟨S100000x16, .f32⟩ : BufTy).Contents (Elt F)) ]

/-- The reference's @main as the list of its 66 host operations, in program order; the three functions it calls (the two rectifiers and
    the row-wise log-softmax) stand inline at their call sites, over each call's own buffers, each operation on those buffers directly. -/
abbrev ops : List (HloOp τ sig (Elt F)) :=
  [ unary main_arg0 main_v0 ((transpose S100000x64 [1, 0] · transposes_S64x100000_S100000x64_1_0) : (⟨S64x100000, .f32⟩ : BufTy).Contents (Elt F) → (⟨S100000x64, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v0 main_arg4 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v13 main_arg5 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v14 main_v15 main_v16 (addf : (⟨S100000x64, .f32⟩ : BufTy).Contents (Elt F) → (⟨S100000x64, .f32⟩ : BufTy).Contents (Elt F) → (⟨S100000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S100000x64 ![0, 1] bcast_S1x64_S100000x64_0_1 : (⟨S1x64, .f32⟩ : BufTy).Contents (Elt F) → (⟨S100000x64, .f32⟩ : BufTy).Contents (Elt F)),
    binary main_v16 main_v18 main_v19 (addf : (⟨S100000x64, .f32⟩ : BufTy).Contents (Elt F) → (⟨S100000x64, .f32⟩ : BufTy).Contents (Elt F) → (⟨S100000x64, .f32⟩ : BufTy).Contents (Elt F)),
    nullary main_call0_cst ((constant S_ .f32 0x00000000#32) : (⟨S_, .f32⟩ : BufTy).Contents (Elt F)),
    unary main_call0_cst main_call0_v0 ((broadcastInDim S100000x64 ![] bcast_S_S100000x64) : (⟨S_, .f32⟩ : BufTy).Contents (Elt F) → (⟨S100000x64, .f32⟩ : BufTy).Contents (Elt F)),
    binary main_v19 main_call0_v0 main_v20 ((maximumf) : (⟨S100000x64, .f32⟩ : BufTy).Contents (Elt F) → (⟨S100000x64, .f32⟩ : BufTy).Contents (Elt F) → (⟨S100000x64, .f32⟩ : BufTy).Contents (Elt F)),
    nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_arg1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_arg1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v28 (broadcastInDim S1600000x1 ![0] bcast_S1600000_S1600000x1_0 : (⟨S1600000, .f32⟩ : BufTy).Contents (Elt F) → (⟨S1600000x1, .f32⟩ : BufTy).Contents (Elt F)),
    unary main_v28 main_v29 (broadcastInDim S1600000x64 ![0, 1] bcast_S1600000x1_S1600000x64_0_1 : (⟨S1600000x1, .f32⟩ : BufTy).Contents (Elt F) → (⟨S1600000x64, .f32⟩ : BufTy).Contents (Elt F)),
    binary main_v27 main_v29 main_v30 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v31 (broadcastInDim S100000x64 ![] bcast_S_S100000x64 : (⟨S_, .f32⟩ : BufTy).Contents (Elt F) → (⟨S100000x64, .f32⟩ : BufTy).Contents (Elt F)),
    unary main_arg2 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v20 main_arg7 main_v34 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v33 main_arg8 main_v35 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v34 main_v35 main_v36 (addf : (⟨S100000x16, .f32⟩ : BufTy).Contents (Elt F) → (⟨S100000x16, .f32⟩ : BufTy).Contents (Elt F) → (⟨S100000x16, .f32⟩ : BufTy).Contents (Elt F)),
    unary main_arg9 main_v37 (broadcastInDim S1x16 ![1] bcast_S16_S1x16_1 : (⟨S16, .f32⟩ : BufTy).Contents (Elt F) → (⟨S1x16, .f32⟩ : BufTy).Contents (Elt F)),
    unary main_v37 main_v38 (broadcastInDim S100000x16 ![0, 1] bcast_S1x16_S100000x16_0_1 : (⟨S1x16, .f32⟩ : BufTy).Contents (Elt F) → (⟨S100000x16, .f32⟩ : BufTy).Contents (Elt F)),
    binary main_v36 main_v38 main_v39 (addf : (⟨S100000x16, .f32⟩ : BufTy).Contents (Elt F) → (⟨S100000x16, .f32⟩ : BufTy).Contents (Elt F) → (⟨S100000x16, .f32⟩ : BufTy).Contents (Elt F)),
    nullary main_call1_cst ((constant S_ .f32 0x00000000#32) : (⟨S_, .f32⟩ : BufTy).Contents (Elt F)),
    unary main_call1_cst main_call1_v0 ((broadcastInDim S100000x16 ![] bcast_S_S100000x16) : (⟨S_, .f32⟩ : BufTy).Contents (Elt F) → (⟨S100000x16, .f32⟩ : BufTy).Contents (Elt F)),
    binary main_v39 main_call1_v0 main_v40 ((maximumf) : (⟨S100000x16, .f32⟩ : BufTy).Contents (Elt F) → (⟨S100000x16, .f32⟩ : BufTy).Contents (Elt F) → (⟨S100000x16, .f32⟩ : BufTy).Contents (Elt F)),
    nullary main_call2_cst ((constant S_ .f32 0xFF800000#32) : (⟨S_, .f32⟩ : BufTy).Contents (Elt F)),
    binary main_v40 main_call2_cst main_call2_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x16 ![0, 1] bcast_S100000x1_S100000x16_0_1) : (⟨S100000x1, .f32⟩ : BufTy).Contents (Elt F) → (⟨S100000x16, .f32⟩ : BufTy).Contents (Elt F)),
    binary main_v40 main_call2_v4 main_call2_v5 ((subf) : (⟨S100000x16, .f32⟩ : BufTy).Contents (Elt F) → (⟨S100000x16, .f32⟩ : BufTy).Contents (Elt F) → (⟨S100000x16, .f32⟩ : BufTy).Contents (Elt F)),
    unary main_call2_v5 main_call2_v6 ((Host.exp) : (⟨S100000x16, .f32⟩ : BufTy).Contents (Elt F) → (⟨S100000x16, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 ((Host.log) : (⟨S100000x1, .f32⟩ : BufTy).Contents (Elt F) → (⟨S100000x1, .f32⟩ : BufTy).Contents (Elt F)),
    unary main_call2_v9 main_call2_v10 ((broadcastInDim S100000x16 ![0, 1] bcast_S100000x1_S100000x16_0_1) : (⟨S100000x1, .f32⟩ : BufTy).Contents (Elt F) → (⟨S100000x16, .f32⟩ : BufTy).Contents (Elt F)),
    binary main_call2_v5 main_call2_v10 main_v41 ((subf) : (⟨S100000x16, .f32⟩ : BufTy).Contents (Elt F) → (⟨S100000x16, .f32⟩ : BufTy).Contents (Elt F) → (⟨S100000x16, .f32⟩ : BufTy).Contents (Elt F)) ]

/-- The same operations as the printed program spells them: a called function's operations act on its call's buffers through
    typed references, whose transports are identities. -/
abbrev opsT : List (HloOp τ sig (Elt F)) :=
  [ unary main_arg0 main_v0 ((transpose S100000x64 [1, 0] · transposes_S64x100000_S100000x64_1_0) : (⟨S64x100000, .f32⟩ : BufTy).Contents (Elt F) → (⟨S100000x64, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v0 main_arg4 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v13 main_arg5 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v14 main_v15 main_v16 (addf : (⟨S100000x64, .f32⟩ : BufTy).Contents (Elt F) → (⟨S100000x64, .f32⟩ : BufTy).Contents (Elt F) → (⟨S100000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S100000x64 ![0, 1] bcast_S1x64_S100000x64_0_1 : (⟨S1x64, .f32⟩ : BufTy).Contents (Elt F) → (⟨S100000x64, .f32⟩ : BufTy).Contents (Elt F)),
    binary main_v16 main_v18 main_v19 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v19) (TRef.of (T := ⟨S100000x64, .f32⟩) main_call0_v0) (TRef.of (T := ⟨S100000x64, .f32⟩) main_v20) maximumf,
    nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_arg1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_arg1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v28 (broadcastInDim S1600000x1 ![0] bcast_S1600000_S1600000x1_0 : (⟨S1600000, .f32⟩ : BufTy).Contents (Elt F) → (⟨S1600000x1, .f32⟩ : BufTy).Contents (Elt F)),
    unary main_v28 main_v29 (broadcastInDim S1600000x64 ![0, 1] bcast_S1600000x1_S1600000x64_0_1 : (⟨S1600000x1, .f32⟩ : BufTy).Contents (Elt F) → (⟨S1600000x64, .f32⟩ : BufTy).Contents (Elt F)),
    binary main_v27 main_v29 main_v30 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v31 (broadcastInDim S100000x64 ![] bcast_S_S100000x64 : (⟨S_, .f32⟩ : BufTy).Contents (Elt F) → (⟨S100000x64, .f32⟩ : BufTy).Contents (Elt F)),
    unary main_arg2 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v20 main_arg7 main_v34 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v33 main_arg8 main_v35 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v34 main_v35 main_v36 (addf : (⟨S100000x16, .f32⟩ : BufTy).Contents (Elt F) → (⟨S100000x16, .f32⟩ : BufTy).Contents (Elt F) → (⟨S100000x16, .f32⟩ : BufTy).Contents (Elt F)),
    unary main_arg9 main_v37 (broadcastInDim S1x16 ![1] bcast_S16_S1x16_1 : (⟨S16, .f32⟩ : BufTy).Contents (Elt F) → (⟨S1x16, .f32⟩ : BufTy).Contents (Elt F)),
    unary main_v37 main_v38 (broadcastInDim S100000x16 ![0, 1] bcast_S1x16_S100000x16_0_1 : (⟨S1x16, .f32⟩ : BufTy).Contents (Elt F) → (⟨S100000x16, .f32⟩ : BufTy).Contents (Elt F)),
    binary main_v36 main_v38 main_v39 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v39) (TRef.of (T := ⟨S100000x16, .f32⟩) main_call1_v0) (TRef.of (T := ⟨S100000x16, .f32⟩) main_v40) maximumf,
    TRef.nullary (TRef.of (T := ⟨S_, .f32⟩) main_call2_cst) (constant S_ .f32 0xFF800000#32),
    TRef.binary (TRef.of (T := ⟨S100000x16, .f32⟩) main_v40) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v40) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v41) subf ]

/-! Each operation through typed references is the operation on the buffers themselves. -/
theorem op_23 : (TRef.nullary (TRef.of (T := ⟨S_, .f32⟩) main_call0_cst) (constant S_ .f32 0x00000000#32) : HloOp τ sig (Elt F)) = nullary main_call0_cst ((constant S_ .f32 0x00000000#32) : (⟨S_, .f32⟩ : BufTy).Contents (Elt F)) := rfl
theorem op_24 : (TRef.unary (TRef.of (T := ⟨S_, .f32⟩) main_call0_cst) (TRef.of (T := ⟨S100000x64, .f32⟩) main_call0_v0) (broadcastInDim S100000x64 ![] bcast_S_S100000x64) : HloOp τ sig (Elt F)) = unary main_call0_cst main_call0_v0 ((broadcastInDim S100000x64 ![] bcast_S_S100000x64) : (⟨S_, .f32⟩ : BufTy).Contents (Elt F) → (⟨S100000x64, .f32⟩ : BufTy).Contents (Elt F)) := rfl
theorem op_25 : (TRef.binary (TRef.of (T := ⟨S100000x64, .f32⟩) main_v19) (TRef.of (T := ⟨S100000x64, .f32⟩) main_call0_v0) (TRef.of (T := ⟨S100000x64, .f32⟩) main_v20) maximumf : HloOp τ sig (Elt F)) = binary main_v19 main_call0_v0 main_v20 ((maximumf) : (⟨S100000x64, .f32⟩ : BufTy).Contents (Elt F) → (⟨S100000x64, .f32⟩ : BufTy).Contents (Elt F) → (⟨S100000x64, .f32⟩ : BufTy).Contents (Elt F)) := rfl
theorem op_48 : (TRef.nullary (TRef.of (T := ⟨S_, .f32⟩) main_call1_cst) (constant S_ .f32 0x00000000#32) : HloOp τ sig (Elt F)) = nullary main_call1_cst ((constant S_ .f32 0x00000000#32) : (⟨S_, .f32⟩ : BufTy).Contents (Elt F)) := rfl
theorem op_49 : (TRef.unary (TRef.of (T := ⟨S_, .f32⟩) main_call1_cst) (TRef.of (T := ⟨S100000x16, .f32⟩) main_call1_v0) (broadcastInDim S100000x16 ![] bcast_S_S100000x16) : HloOp τ sig (Elt F)) = unary main_call1_cst main_call1_v0 ((broadcastInDim S100000x16 ![] bcast_S_S100000x16) : (⟨S_, .f32⟩ : BufTy).Contents (Elt F) → (⟨S100000x16, .f32⟩ : BufTy).Contents (Elt F)) := rfl
theorem op_50 : (TRef.binary (TRef.of (T := ⟨S100000x16, .f32⟩) main_v39) (TRef.of (T := ⟨S100000x16, .f32⟩) main_call1_v0) (TRef.of (T := ⟨S100000x16, .f32⟩) main_v40) maximumf : HloOp τ sig (Elt F)) = binary main_v39 main_call1_v0 main_v40 ((maximumf) : (⟨S100000x16, .f32⟩ : BufTy).Contents (Elt F) → (⟨S100000x16, .f32⟩ : BufTy).Contents (Elt F) → (⟨S100000x16, .f32⟩ : BufTy).Contents (Elt F)) := rfl
theorem op_51 : (TRef.nullary (TRef.of (T := ⟨S_, .f32⟩) main_call2_cst) (constant S_ .f32 0xFF800000#32) : HloOp τ sig (Elt F)) = nullary main_call2_cst ((constant S_ .f32 0xFF800000#32) : (⟨S_, .f32⟩ : BufTy).Contents (Elt F)) := rfl
theorem op_52 : (TRef.binary (TRef.of (T := ⟨S100000x16, .f32⟩) main_v40) (TRef.of (T := ⟨S_, .f32⟩) main_call2_cst) (TRef.of (T := ⟨S100000, .f32⟩) main_call2_v0) (fun x v => Host.reduce FloatOps.maximumf x v reducesTo_S100000x16_S100000_d1 h_S_) : HloOp τ sig (Elt F)) = binary main_v40 main_call2_cst main_call2_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)) := by
  simp only [TRef.binary, TRef.toBuf, TRef.ofBuf, cast_eq]
  rfl
theorem op_53 : (TRef.nullary (TRef.of (T := ⟨S_, .f32⟩) main_call2_cst_0) (constant S_ .f32 0xFF800000#32) : HloOp τ sig (Elt F)) = nullary main_call2_cst_0 ((constant S_ .f32 0xFF800000#32) : (⟨S_, .f32⟩ : BufTy).Contents (Elt F)) := rfl
theorem op_54 : (TRef.unary (TRef.of (T := ⟨S_, .f32⟩) main_call2_cst_0) (TRef.of (T := ⟨S100000, .f32⟩) main_call2_v1) (broadcastInDim S100000 ![] bcast_S_S100000) : HloOp τ sig (Elt F)) = unary main_call2_cst_0 main_call2_v1 ((broadcastInDim S100000 ![] bcast_S_S100000) : (⟨S_, .f32⟩ : BufTy).Contents (Elt F) → (⟨S100000, .f32⟩ : BufTy).Contents (Elt F)) := rfl
theorem op_55 : (TRef.binary (TRef.of (T := ⟨S100000, .f32⟩) main_call2_v1) (TRef.of (T := ⟨S100000, .f32⟩) main_call2_v0) (TRef.of (T := ⟨S100000, .f32⟩) main_call2_v2) maximumf : HloOp τ sig (Elt F)) = binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)) := rfl
theorem op_56 : (TRef.unary (TRef.of (T := ⟨S100000, .f32⟩) main_call2_v2) (TRef.of (T := ⟨S100000x1, .f32⟩) main_call2_v3) (broadcastInDim S100000x1 ![0] bcast_S100000_S100000x1_0) : HloOp τ sig (Elt F)) = unary main_call2_v2 main_call2_v3 ((broadcastInDim S100000x1 ![0] bcast_S100000_S100000x1_0) : (⟨S100000, .f32⟩ : BufTy).Contents (Elt F) → (⟨S100000x1, .f32⟩ : BufTy).Contents (Elt F)) := rfl
theorem op_57 : (TRef.unary (TRef.of (T := ⟨S100000x1, .f32⟩) main_call2_v3) (TRef.of (T := ⟨S100000x16, .f32⟩) main_call2_v4) (broadcastInDim S100000x16 ![0, 1] bcast_S100000x1_S100000x16_0_1) : HloOp τ sig (Elt F)) = unary main_call2_v3 main_call2_v4 ((broadcastInDim S100000x16 ![0, 1] bcast_S100000x1_S100000x16_0_1) : (⟨S100000x1, .f32⟩ : BufTy).Contents (Elt F) → (⟨S100000x16, .f32⟩ : BufTy).Contents (Elt F)) := rfl
theorem op_58 : (TRef.binary (TRef.of (T := ⟨S100000x16, .f32⟩) main_v40) (TRef.of (T := ⟨S100000x16, .f32⟩) main_call2_v4) (TRef.of (T := ⟨S100000x16, .f32⟩) main_call2_v5) subf : HloOp τ sig (Elt F)) = binary main_v40 main_call2_v4 main_call2_v5 ((subf) : (⟨S100000x16, .f32⟩ : BufTy).Contents (Elt F) → (⟨S100000x16, .f32⟩ : BufTy).Contents (Elt F) → (⟨S100000x16, .f32⟩ : BufTy).Contents (Elt F)) := rfl
theorem op_59 : (TRef.unary (TRef.of (T := ⟨S100000x16, .f32⟩) main_call2_v5) (TRef.of (T := ⟨S100000x16, .f32⟩) main_call2_v6) Host.exp : HloOp τ sig (Elt F)) = unary main_call2_v5 main_call2_v6 ((Host.exp) : (⟨S100000x16, .f32⟩ : BufTy).Contents (Elt F) → (⟨S100000x16, .f32⟩ : BufTy).Contents (Elt F)) := rfl
theorem op_60 : (TRef.nullary (TRef.of (T := ⟨S_, .f32⟩) main_call2_cst_1) (constant S_ .f32 0x00000000#32) : HloOp τ sig (Elt F)) = nullary main_call2_cst_1 ((constant S_ .f32 0x00000000#32) : (⟨S_, .f32⟩ : BufTy).Contents (Elt F)) := rfl
theorem op_61 : (TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_) : HloOp τ sig (Elt F)) = binary main_call2_v6 main_call2_cst_1 main_call2_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)) := rfl
theorem op_62 : (TRef.unary (TRef.of (T := ⟨S100000, .f32⟩) main_call2_v7) (TRef.of (T := ⟨S100000x1, .f32⟩) main_call2_v8) (broadcastInDim S100000x1 ![0] bcast_S100000_S100000x1_0) : HloOp τ sig (Elt F)) = unary main_call2_v7 main_call2_v8 ((broadcastInDim S100000x1 ![0] bcast_S100000_S100000x1_0) : (⟨S100000, .f32⟩ : BufTy).Contents (Elt F) → (⟨S100000x1, .f32⟩ : BufTy).Contents (Elt F)) := rfl
theorem op_63 : (TRef.unary (TRef.of (T := ⟨S100000x1, .f32⟩) main_call2_v8) (TRef.of (T := ⟨S100000x1, .f32⟩) main_call2_v9) Host.log : HloOp τ sig (Elt F)) = unary main_call2_v8 main_call2_v9 ((Host.log) : (⟨S100000x1, .f32⟩ : BufTy).Contents (Elt F) → (⟨S100000x1, .f32⟩ : BufTy).Contents (Elt F)) := rfl
theorem op_64 : (TRef.unary (TRef.of (T := ⟨S100000x1, .f32⟩) main_call2_v9) (TRef.of (T := ⟨S100000x16, .f32⟩) main_call2_v10) (broadcastInDim S100000x16 ![0, 1] bcast_S100000x1_S100000x16_0_1) : HloOp τ sig (Elt F)) = unary main_call2_v9 main_call2_v10 ((broadcastInDim S100000x16 ![0, 1] bcast_S100000x1_S100000x16_0_1) : (⟨S100000x1, .f32⟩ : BufTy).Contents (Elt F) → (⟨S100000x16, .f32⟩ : BufTy).Contents (Elt F)) := rfl
theorem op_65 : (TRef.binary (TRef.of (T := ⟨S100000x16, .f32⟩) main_call2_v5) (TRef.of (T := ⟨S100000x16, .f32⟩) main_call2_v10) (TRef.of (T := ⟨S100000x16, .f32⟩) main_v41) subf : HloOp τ sig (Elt F)) = binary main_call2_v5 main_call2_v10 main_v41 ((subf) : (⟨S100000x16, .f32⟩ : BufTy).Contents (Elt F) → (⟨S100000x16, .f32⟩ : BufTy).Contents (Elt F) → (⟨S100000x16, .f32⟩ : BufTy).Contents (Elt F)) := rfl

/-- So the two spellings of the program are one list. -/
theorem opsT_eq : (opsT : List (HloOp τ sig (Elt F))) = ops := by
  unfold opsT ops
  rw [op_23, op_24, op_25, op_48, op_49, op_50, op_51, op_52, op_53, op_54, op_55, op_56, op_57, op_58, op_59, op_60, op_61, op_62, op_63, op_64, op_65]

set_option maxRecDepth 65536 in
set_option maxHeartbeats 4000000 in
/-- @main is the sequence of its operations as printed. -/
theorem main_eqT (c : Dev nD) : main (F := F) c = seq opsT := rfl

/-- @main is the sequence of those operations. -/
theorem main_eq (c : Dev nD) : main (F := F) c = seq ops := (main_eqT c).trans (congrArg seq opsT_eq)
/-- The program has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
/-- Every operation touches TensorCore-visible buffers only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The program's operations are the three stretches in order. -/
theorem ops_eq : (ops : List (HloOp τ sig (Elt F))) = ops1 ++ (ops2 ++ ops3) := rfl

/-- Running one list of operations after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The result as a composition of named stages -/

/-- Neighbourhood aggregation of a feature array `x` of shape [nodes, 64]: gather row `src e` of `x` for every edge `e`
    (a negative index wrapped once by the node count), scale it by `val e`, and add it into row `dst e` of a zero array. -/
def agg (src dst : (⟨S1600000, .i32⟩ : BufTy).Contents (Elt F)) (val : (⟨S1600000, .f32⟩ : BufTy).Contents (Elt F))
    (x : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 val)))

/-- The first layer on whole arrays: `max (x · W_u + a · W_v + b, 0)`, the bias repeated over the rows. -/
def layer1 (x a : (⟨S100000x64, .f32⟩ : BufTy).Contents (Elt F)) (wu wv : (⟨S64x64, .f32⟩ : BufTy).Contents (Elt F))
    (b : (⟨S64, .f32⟩ : BufTy).Contents (Elt F)) : (⟨S100000x64, .f32⟩ : BufTy).Contents (Elt F) :=
  maximumf
    (addf (addf (Host.dotGeneral dot_S100000x64_S64x64_S100000x64_1_0_0_1_n_n none x wu)
        (Host.dotGeneral dot_S100000x64_S64x64_S100000x64_1_0_0_1_n_n none a wv))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer before the softmax: the same with 16 output columns. -/
def layer2 (x a : (⟨S100000x64, .f32⟩ : BufTy).Contents (Elt F)) (wu wv : (⟨S64x16, .f32⟩ : BufTy).Contents (Elt F))
    (b : (⟨S16, .f32⟩ : BufTy).Contents (Elt F)) : (⟨S100000x16, .f32⟩ : BufTy).Contents (Elt F) :=
  maximumf
    (addf (addf (Host.dotGeneral dot_S100000x64_S64x16_S100000x16_1_0_0_1_n_n none x wu)
        (Host.dotGeneral dot_S100000x64_S64x16_S100000x16_1_0_0_1_n_n none a wv))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The row maximum as the reference takes it: the greater of `-∞` and the fold of the maximum along the row from `-∞`. -/
def rowMax (z : (⟨S100000x16, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x16_S100000_d1 h_S_)

/-- The entries less their row's maximum. -/
def shifted (z : (⟨S100000x16, .f32⟩ : BufTy).Contents (Elt F)) : (⟨S100000x16, .f32⟩ : BufTy).Contents (Elt F) :=
  subf z (broadcastInDim S100000x16 ![0, 1] bcast_S100000x1_S100000x16_0_1
    (broadcastInDim S100000x1 ![0] bcast_S100000_S100000x1_0 (rowMax z)))

/-- The row-wise log-softmax: the shifted entries less the logarithm of the row's sum of their exponentials. -/
def logSoftmax (z : (⟨S100000x16, .f32⟩ : BufTy).Contents (Elt F)) : (⟨S100000x16, .f32⟩ : BufTy).Contents (Elt F) :=
  subf (shifted z) (broadcastInDim S100000x16 ![0, 1] bcast_S100000x1_S100000x16_0_1
    (Host.log (broadcastInDim S100000x1 ![0] bcast_S100000_S100000x1_0
      (Host.reduceAdd (Host.exp (shifted z)) (constant S_ .f32 0x00000000#32) reducesTo_S100000x16_S100000_d1 h_S_))))

/-- The node features as rows: the argument [64, nodes] transposed. -/
def nodes (x0 : (⟨S64x100000, .f32⟩ : BufTy).Contents (Elt F)) : (⟨S100000x64, .f32⟩ : BufTy).Contents (Elt F) :=
  transpose S100000x64 [1, 0] x0 transposes_S64x100000_S100000x64_1_0

/-- The hidden features: the first layer of the node features and their aggregation. -/
def hidden (m : (ℓ : Loc nD τ sig) → Buf (Elt F) ℓ) (c : Dev nD) : (⟨S100000x64, .f32⟩ : BufTy).Contents (Elt F) :=
  layer1 (nodes (m ((c.tc : Thread nD τ).loc main_arg0)))
    (agg (m ((c.tc : Thread nD τ).loc main_arg1)) (m ((c.tc : Thread nD τ).loc main_arg2)) (m ((c.tc : Thread nD τ).loc main_arg3))
      (nodes (m ((c.tc : Thread nD τ).loc main_arg0))))
    (m ((c.tc : Thread nD τ).loc main_arg4)) (m ((c.tc : Thread nD τ).loc main_arg5)) (m ((c.tc : Thread nD τ).loc main_arg6))

/-- The program's result as a term of its arguments' launch contents. -/
def result (m : (ℓ : Loc nD τ sig) → Buf (Elt F) ℓ) (c : Dev nD) : Buf (Elt F) ((c.tc : Thread nD τ).loc main_v41) :=
  logSoftmax (layer2 (hidden m c)
    (agg (m ((c.tc : Thread nD τ).loc main_arg1)) (m ((c.tc : Thread nD τ).loc main_arg2)) (m ((c.tc : Thread nD τ).loc main_arg3)) (hidden m c))
    (m ((c.tc : Thread nD τ).loc main_arg7)) (m ((c.tc : Thread nD τ).loc main_arg8)) (m ((c.tc : Thread nD τ).loc main_arg9)))

/-! ## Each stretch's result from the buffer contents it starts from -/

set_option maxRecDepth 65536 in
set_option maxHeartbeats 4000000 in
/-- The first stretch leaves the hidden features: the first layer of the node features and their aggregation. -/
theorem stage1 (W : Valuation τ sig (Elt F)) :
    after ops1 W (Proc.devRef .tc main_v20)
      = layer1 (nodes (W (Proc.devRef .tc main_arg0)))
          (agg (W (Proc.devRef .tc main_arg1)) (W (Proc.devRef .tc main_arg2)) (W (Proc.devRef .tc main_arg3)) (nodes (W (Proc.devRef .tc main_arg0))))
          (W (Proc.devRef .tc main_arg4)) (W (Proc.devRef .tc main_arg5)) (W (Proc.devRef .tc main_arg6)) := by
  after_results_simp <;> rfl

set_option maxRecDepth 65536 in
set_option maxHeartbeats 4000000 in
/-- The second stretch leaves the second layer of the hidden features it finds and of their aggregation. -/
theorem stage2 (W : Valuation τ sig (Elt F)) :
    after ops2 W (Proc.devRef .tc main_v40)
      = layer2 (W (Proc.devRef .tc main_v20))
          (agg (W (Proc.devRef .tc main_arg1)) (W (Proc.devRef .tc main_arg2)) (W (Proc.devRef .tc main_arg3)) (W (Proc.devRef .tc main_v20)))
          (W (Proc.devRef .tc main_arg7)) (W (Proc.devRef .tc main_arg8)) (W (Proc.devRef .tc main_arg9)) := by
  after_results_simp <;> rfl

set_option maxRecDepth 65536 in
set_option maxHeartbeats 4000000 in
/-- The third stretch leaves the row-wise log-softmax of the array it finds. -/
theorem stage3 (W : Valuation τ sig (Elt F)) :
    after ops3 W (Proc.devRef .tc main_v41) = logSoftmax (W (Proc.devRef .tc main_v40)) := by
  after_results_simp <;> rfl

set_option maxRecDepth 65536 in
set_option maxHeartbeats 4000000 in
/-- The first stretch writes no argument and the second writes neither an argument nor the hidden features. -/
theorem kept1 (W : Valuation τ sig (Elt F)) :
    after ops1 W (Proc.devRef .tc main_arg1) = W (Proc.devRef .tc main_arg1)
    ∧ after ops1 W (Proc.devRef .tc main_arg2) = W (Proc.devRef .tc main_arg2)
    ∧ after ops1 W (Proc.devRef .tc main_arg3) = W (Proc.devRef .tc main_arg3)
    ∧ after ops1 W (Proc.devRef .tc main_arg7) = W (Proc.devRef .tc main_arg7)
    ∧ after ops1 W (Proc.devRef .tc main_arg8) = W (Proc.devRef .tc main_arg8)
    ∧ after ops1 W (Proc.devRef .tc main_arg9) = W (Proc.devRef .tc main_arg9) := by
  refine ⟨?_, ?_, ?_, ?_, ?_, ?_⟩ <;> (after_results_simp <;> rfl)

/-- The whole program's result buffer from the launch contents. -/
theorem result_eq (m : (ℓ : Loc nD τ sig) → Buf (Elt F) ℓ) (c : Dev nD) :
    after ops (launchContents m c) (Proc.devRef .tc main_v41) = result m c := by
  rw [ops_eq, after_append, after_append, stage3, stage2, stage1]
  obtain ⟨h1, h2, h3, h7, h8, h9⟩ := kept1 (launchContents m c)
  rw [h1, h2, h3, h7, h8, h9]
  rfl

set_option maxRecDepth 65536 in
set_option maxHeartbeats 26400000 in
/-- On every device, from any memory with zero counters: every weakly fair execution of @main terminates with the
    result buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v41).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result as the network of the specification.

  Entry by entry the reference's first layer, second layer and log-softmax are the specification's: a host product
  contracted over one axis is the sum over that axis, a bias vector repeated over the rows reads its column's entry, a
  rank-0 zero repeated over the array is that zero, and the host's row maximum and row sum, broadcast back along the row,
  are the row's maximum and sum.
-/
import proofs.«104146_j50491635532438_1_alg».proof.Proof.RefRun
import proofs.«104146_j50491635532438_1_alg».proof.Proof.LibDenseTwo
import proofs.«104146_j50491635532438_1_alg».proof.Proof.LibLogSoftmax
import proofs.«104146_j50491635532438_1_alg».proof.Proof.Spec

noncomputable section

namespace Cert.ReferenceIdeal.RefValue

open Cert.ReferenceIdeal Cert.ReferenceIdeal.Gen Idealize.ShloMosaic Idealize.ShloMosaic.TcCoe Idealize.ShloMosaic.ValueIdx Idealize.SL.Sem
open Cert.Spec

/-! ## The operand coordinates of the two products: output (p, q) and contraction position k read (p, k) and (k, q) -/

theorem d64_l0 (j : S100000x64.Idx) (k : dot_S100000x64_S64x64_S100000x64_1_0_0_1_n_n.contr.Idx) : (dot_S100000x64_S64x64_S100000x64_1_0_0_1_n_n.lhsIdx j k 0).val = (j 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem d64_l1 (j : S100000x64.Idx) (k : dot_S100000x64_S64x64_S100000x64_1_0_0_1_n_n.contr.Idx) : (dot_S100000x64_S64x64_S100000x64_1_0_0_1_n_n.lhsIdx j k 1).val = (k ⟨0, by decide⟩).val :=
  dot_S100000x64_S64x64_S100000x64_1_0_0_1_n_n.lhsIdx_val_of_single rfl j k
theorem d64_r0 (j : S100000x64.Idx) (k : dot_S100000x64_S64x64_S100000x64_1_0_0_1_n_n.contr.Idx) : (dot_S100000x64_S64x64_S100000x64_1_0_0_1_n_n.rhsIdx j k 0).val = (k ⟨0, by decide⟩).val :=
  dot_S100000x64_S64x64_S100000x64_1_0_0_1_n_n.rhsIdx_val_of_single rfl j k
theorem d64_r1 (j : S100000x64.Idx) (k : dot_S100000x64_S64x64_S100000x64_1_0_0_1_n_n.contr.Idx) : (dot_S100000x64_S64x64_S100000x64_1_0_0_1_n_n.rhsIdx j k 1).val = (j 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem d16_l0 (j : S100000x16.Idx) (k : dot_S100000x64_S64x16_S100000x16_1_0_0_1_n_n.contr.Idx) : (dot_S100000x64_S64x16_S100000x16_1_0_0_1_n_n.lhsIdx j k 0).val = (j 0).val := by
  unfold DotDims.lhsIdx
  rw [dif_neg (show ¬(0 : Fin S100000x64.rank) ∈ dot_S100000x64_S64x16_S100000x16_1_0_0_1_n_n.lhsBatch by decide), dif_pos (show (0 : Fin S100000x64.rank) ∈ dot_S100000x64_S64x16_S100000x16_1_0_0_1_n_n.lhsNonContracting by decide)]
  rfl
theorem d16_l1 (j : S100000x16.Idx) (k : dot_S100000x64_S64x16_S100000x16_1_0_0_1_n_n.contr.Idx) : (dot_S100000x64_S64x16_S100000x16_1_0_0_1_n_n.lhsIdx j k 1).val = (k ⟨0, by decide⟩).val :=
  dot_S100000x64_S64x16_S100000x16_1_0_0_1_n_n.lhsIdx_val_of_single rfl j k
theorem d16_r0 (j : S100000x16.Idx) (k : dot_S100000x64_S64x16_S100000x16_1_0_0_1_n_n.contr.Idx) : (dot_S100000x64_S64x16_S100000x16_1_0_0_1_n_n.rhsIdx j k 0).val = (k ⟨0, by decide⟩).val :=
  dot_S100000x64_S64x16_S100000x16_1_0_0_1_n_n.rhsIdx_val_of_single rfl j k
theorem d16_r1 (j : S100000x16.Idx) (k : dot_S100000x64_S64x16_S100000x16_1_0_0_1_n_n.contr.Idx) : (dot_S100000x64_S64x16_S100000x16_1_0_0_1_n_n.rhsIdx j k 1).val = (j 1).val := by
  unfold DotDims.rhsIdx
  rw [dif_neg (show ¬(1 : Fin S64x16.rank) ∈ dot_S100000x64_S64x16_S100000x16_1_0_0_1_n_n.rhsBatch by decide), dif_pos (show (1 : Fin S64x16.rank) ∈ dot_S100000x64_S64x16_S100000x16_1_0_0_1_n_n.rhsNonContracting by decide)]
  rfl

/-! ## The stages -/

/-- The reference's first layer is the specification's, the bias read by column. -/
theorem layer1_eq (x a : FVec Ideal S100000x64 .f32) (wu wv : FVec Ideal S64x64 .f32) (b : FVec Ideal S64 .f32) :
    RefRun.layer1 (F := Ideal) x a wu wv b = denseRelu (M := 100000) (K := 64) (N := 64) x a wu wv (fun q => b (ix1 q)) := by
  funext j
  obtain ⟨p, q, rfl⟩ : ∃ (p : Fin 100000) (q : Fin 64), j = ix2 p q := ⟨j 0, j 1, eq_ix2 j⟩
  exact Cert.LibDenseTwo.host_dense2_apply dot_S100000x64_S64x64_S100000x64_1_0_0_1_n_n rfl rfl d64_l0 d64_l1 d64_r0 d64_r1
    bcast_S64_S1x64_1 bcast_S1x64_S100000x64_0_1 bcast_S_S100000x64 x a wu wv b p q

/-- The reference's second layer is the specification's. -/
theorem layer2_eq (x a : FVec Ideal S100000x64 .f32) (wu wv : FVec Ideal S64x16 .f32) (b : FVec Ideal S16 .f32) :
    RefRun.layer2 (F := Ideal) x a wu wv b = denseRelu (M := 100000) (K := 64) (N := 16) x a wu wv (fun q => b (ix1 q)) := by
  funext j
  obtain ⟨p, q, rfl⟩ : ∃ (p : Fin 100000) (q : Fin 16), j = ix2 p q := ⟨j 0, j 1, eq_ix2 j⟩
  exact Cert.LibDenseTwo.host_dense2_apply dot_S100000x64_S64x16_S100000x16_1_0_0_1_n_n rfl rfl d16_l0 d16_l1 d16_r0 d16_r1
    bcast_S16_S1x16_1 bcast_S1x16_S100000x16_0_1 bcast_S_S100000x16 x a wu wv b p q

/-- The reference's log-softmax is the specification's. -/
theorem logSoftmax_eq (z : FVec Ideal S100000x16 .f32) :
    RefRun.logSoftmax (F := Ideal) z = Cert.LibLogSoftmax.rowLogSoftmax (M := 100000) (N := 16) z := by
  funext j
  obtain ⟨p, q, rfl⟩ : ∃ (p : Fin 100000) (q : Fin 16), j = ix2 p q := ⟨j 0, j 1, eq_ix2 j⟩
  exact Cert.LibLogSoftmax.host_logSoftmax_apply z reducesTo_S100000x16_S100000_d1 (by decide) h_S_ bcast_S_S100000
    bcast_S100000_S100000x1_0 bcast_S100000x1_S100000x16_0_1 p q

/-- THE RESULT: the reference's result term is the network of its arguments, over the host's aggregation. -/
theorem result_eq (m : (ℓ : Loc nD τ sig) → Buf (Elt Ideal) ℓ) (c : Dev nD) :
    RefRun.result (F := Ideal) m c
      = gnn (RefRun.agg (F := Ideal) (m ((c.tc : Thread nD τ).loc main_arg1)) (m ((c.tc : Thread nD τ).loc main_arg2)) (m ((c.tc : Thread nD τ).loc main_arg3)))
          (RefRun.nodes (F := Ideal) (m ((c.tc : Thread nD τ).loc main_arg0)))
          (m ((c.tc : Thread nD τ).loc main_arg4)) (m ((c.tc : Thread nD τ).loc main_arg5)) (fun q => m ((c.tc : Thread nD τ).loc main_arg6) (ix1 q))
          (m ((c.tc : Thread nD τ).loc main_arg7)) (m ((c.tc : Thread nD τ).loc main_arg8)) (fun q => m ((c.tc : Thread nD τ).loc main_arg9) (ix1 q)) := by
  unfold RefRun.result RefRun.hidden gnn
  rw [logSoftmax_eq, layer2_eq, layer1_eq]

end Cert.ReferenceIdeal.RefValue

end
-- ==== Proof.lean ====
/-
  A two-layer message-passing network on a graph with 100000 nodes and 1600000 weighted edges, ending in a row-wise
  log-softmax over 16 classes: the kernel program against its jnp reference, at the extended reals.

  Both programs compute, with X the node features as rows and `agg` the host's neighbourhood aggregation (gather the source
  rows, scale by the edge values, add into the destination rows),

      H   = max (X · Wu1 + agg X · Wv1 + b1, 0)
      Z   = max (H · Wu2 + agg H · Wv2 + b2, 0)
      out = (Z - m) - log (∑ exp (Z - m)),   m the row maximum of Z.

  The kernel program computes each layer in a launch over 20 blocks of 5000 rows, the host doing the aggregation before each
  launch; the reference computes everything on the host. The aggregation is the same host term in both programs and is never
  opened. A layer's entry and a log-softmax's entry read one row of their operands, so the blocks of rows the launches write
  are the blocks of one function of the whole arrays. The two sides' sums are the same sums of the same terms in the same
  grouping, the maxima the same folds, so no law of the extended reals beyond `max ⊥ x = x` and `0 + x = x` is needed and
  the precondition is not used by the value claim.
-/
import proofs.«104146_j50491635532438_1_alg».proof.Defs
import proofs.«104146_j50491635532438_1_alg».proof.Proof.Gen.Kernel
import proofs.«104146_j50491635532438_1_alg».proof.Proof.Gen.Kernel.Skeleton
import proofs.«104146_j50491635532438_1_alg».proof.Proof.Gen.Kernel.Launch
import proofs.«104146_j50491635532438_1_alg».proof.Proof.Gen.Kernel.Points
import proofs.«104146_j50491635532438_1_alg».proof.Proof.Gen.Kernel.Frame
import proofs.«104146_j50491635532438_1_alg».proof.Proof.Gen.KernelIdeal
import proofs.«104146_j50491635532438_1_alg».proof.Proof.Gen.KernelIdeal.Skeleton
import proofs.«104146_j50491635532438_1_alg».proof.Proof.Gen.KernelIdeal.Launch
import proofs.«104146_j50491635532438_1_alg».proof.Proof.Gen.KernelIdeal.Points
import proofs.«104146_j50491635532438_1_alg».proof.Proof.Gen.KernelIdeal.Frame
import proofs.«104146_j50491635532438_1_alg».proof.Proof.Gen.ReferenceIdeal
import proofs.«104146_j50491635532438_1_alg».proof.Proof.Gen.Pre_finite_inputs
import proofs.«104146_j50491635532438_1_alg».proof.Proof.KValue
import proofs.«104146_j50491635532438_1_alg».proof.Proof.RefValue
import Idealize.ShloMosaic.Adequacy
import Idealize.ShloMosaic.Init

noncomputable section

namespace Cert.Proof

open Idealize.ShloMosaic Idealize.ShloMosaic.TcCoe Idealize.SL.Sem

/-- The two programs' host aggregations are one function: the same operations on the same shapes. -/
theorem agg_eq (src dst : (⟨Cert.KernelIdeal.S1600000, .i32⟩ : BufTy).Contents (Elt Ideal))
    (val : (⟨Cert.KernelIdeal.S1600000, .f32⟩ : BufTy).Contents (Elt Ideal)) :
    Cert.KernelIdeal.KValue.agg (F := Ideal) src dst val = Cert.ReferenceIdeal.RefRun.agg (F := Ideal) src dst val := rfl

/-- And so are their transposes of the node features. -/
theorem nodes_eq (x0 : (⟨Cert.KernelIdeal.S64x100000, .f32⟩ : BufTy).Contents (Elt Ideal)) :
    Cert.KernelIdeal.KValue.nodes (F := Ideal) x0 = Cert.ReferenceIdeal.RefRun.nodes (F := Ideal) x0 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation: there is nothing to preserve. -/
theorem preserves : Cert.preserves_Kernel_KernelIdeal := trivial

/-- From memories that agree on the arguments both programs end with the network of the arguments in their result
    buffers: the kernel program by its two launches' outputs read as whole-array functions, the reference by its run. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq]
  obtain ⟨h0, h1, h2, h3, h4, h5, h6, h7, h8, h9⟩ := hagree c
  rw [h0, h1, h2, h3, h4, h5, h6, h7, h8, h9]
  exact (Cert.Spec.gnn_congr (funext fun x => agg_eq _ _ _ ▸ rfl) (nodes_eq _) _ _ rfl _ _ rfl).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
